-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S_ : Shape := ⟨0, ![]⟩

class Facts : Prop where
  bcast_S_S20000x512 : S_.BroadcastsInDim S20000x512 (![] : Fin 0 → Fin S20000x512.rank)
  reducesTo_S20000x512_S_d0_1 : S20000x512.ReducesTo [0, 1] S_
  h_S_ : 0 < S_.numel
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S512x128 .f32) (main_arg9 : FVec F S128 .f32) (main_v33 : IVec S_ 1) : IVec S_ 1 :=
  let main_v34 : FVec F S512x128 .f32 := Host.absf main_arg8
  let main_cst_12 : FVec F S_ .f32 := constant S_ .f32 0x7F800000#32
  let main_v35 : FVec F S512x128 .f32 := broadcastInDim S512x128 ![] bcast_S_S512x128 main_cst_12
  let main_v36 : IVec S512x128 1 := cmpf .olt main_v34 main_v35
  let main_c_13 : IVec S_ 1 := constantI S_ 1 1#1
  let main_v37 : IVec S_ 1 := (fun x v => Host.reduce IntOp.andi x v reducesTo_S512x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S512 .f32) (main_arg6 : FVec F S512x512 .f32) (main_arg7 : FVec F S512 .f32) (main_arg8 : FVec F S512x128 .f32) (main_arg9 : FVec F S128 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x512 .f32 := Host.absf main_arg6
  let main_cst_8 : FVec F S_ .f32 := constant S_ .f32 0x7F800000#32
  let main_v25 : FVec F S512x512 .f32 := broadcastInDim S512x512 ![] bcast_S_S512x512 main_cst_8
  let main_v26 : IVec S512x512 1 := cmpf .olt main_v24 main_v25
  let main_c_9 : IVec S_ 1 := constantI S_ 1 1#1
  let main_v27 : IVec S_ 1 := (fun x v => Host.reduce IntOp.andi x v reducesTo_S512x512_S_d0_1 h_S_) main_v26 main_c_9
  let main_v28 : IVec S_ 1 := andi main_v23 main_v27
  let main_v29 : FVec F S512 .f32 := Host.absf main_arg7
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg8 main_arg9 main_v33

def fn {F : FTy → Type} [FloatOps F] (main_arg0 : FVec F S20000x512 .f32) (main_arg1 : IVec S2x320000 32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x128 .f32) (main_arg9 : FVec F S128 .f32) : IVec S_ 1 :=
  let main_v0 : FVec F S20000x512 .f32 := Host.absf main_arg0
  let main_cst : FVec F S_ .f32 := constant S_ .f32 0x7F800000#32
  let main_v1 : FVec F S20000x512 .f32 := broadcastInDim S20000x512 ![] bcast_S_S20000x512 main_cst
  let main_v2 : IVec S20000x512 1 := cmpf .olt main_v0 main_v1
  let main_c : IVec S_ 1 := constantI S_ 1 1#1
  let main_v3 : IVec S_ 1 := (fun x v => Host.reduce IntOp.andi x v reducesTo_S20000x512_S_d0_1 h_S_) main_v2 main_c
  let main_v4 : FVec F S512x512 .f32 := Host.absf main_arg2
  let main_cst_0 : FVec F S_ .f32 := constant S_ .f32 0x7F800000#32
  let main_v5 : FVec F S512x512 .f32 := broadcastInDim S512x512 ![] bcast_S_S512x512 main_cst_0
  let main_v6 : IVec S512x512 1 := cmpf .olt main_v4 main_v5
  let main_c_1 : IVec S_ 1 := constantI S_ 1 1#1
  let main_v7 : IVec S_ 1 := (fun x v => Host.reduce IntOp.andi x v reducesTo_S512x512_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x512 .f32 := Host.absf main_arg4
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg5 main_arg6 main_arg7 main_arg8 main_arg9 main_v13 main_v16
-- ==== Kernel.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S20000x1 : Shape := ⟨2, ![20000, 1]⟩
abbrev S2000x512 : Shape := ⟨2, ![2000, 512]⟩
abbrev S2000x1 : Shape := ⟨2, ![2000, 1]⟩
abbrev S340000x512 : Shape := ⟨2, ![340000, 512]⟩
abbrev S1x512 : Shape := ⟨2, ![1, 512]⟩
abbrev S1x128 : Shape := ⟨2, ![1, 128]⟩
abbrev S20000x128 : Shape := ⟨2, ![20000, 128]⟩
abbrev S2000x128 : Shape := ⟨2, ![2000, 128]⟩
abbrev S2000 : Shape := ⟨1, ![2000]⟩

abbrev nBuf : Space → Nat
  | .hbm => 65
  | .vmem => 26
  | .smem => 0
  | _ => 0

abbrev bufTy : (tb : Table) → Fin (tcTables nBuf tb) → BufTy
  | .hbm, ⟨0, _⟩ => ⟨S20000x512, .f32⟩
  | .hbm, ⟨1, _⟩ => ⟨S2x320000, .i32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x128, .f32⟩
  | .hbm, ⟨9, _⟩ => ⟨S128, .f32⟩
  | .hbm, ⟨10, _⟩ => ⟨S20000, .i32⟩
  | .hbm, ⟨11, _⟩ => ⟨S1x320000, .i32⟩
  | .hbm, ⟨12, _⟩ => ⟨S320000, .i32⟩
  | .hbm, ⟨13, _⟩ => ⟨S340000, .i32⟩
  | .hbm, ⟨14, _⟩ => ⟨S1x320000, .i32⟩
  | .hbm, ⟨15, _⟩ => ⟨S320000, .i32⟩
  | .hbm, ⟨16, _⟩ => ⟨S340000, .i32⟩
  | .hbm, ⟨17, _⟩ => ⟨S_, .f32⟩
  | .hbm, ⟨18, _⟩ => ⟨S340000, .f32⟩
  | .hbm, ⟨19, _⟩ => ⟨S_, .f32⟩
  | .hbm, ⟨20, _⟩ => ⟨S20000, .f32⟩
  | .hbm, ⟨21, _⟩ => ⟨S340000x1, .i32⟩
  | .hbm, ⟨22, _⟩ => ⟨S20000, .f32⟩
  | .hbm, ⟨23, _⟩ => ⟨S_, .f32⟩
  | .hbm, ⟨24, _⟩ => ⟨S20000, .f32⟩
  | .hbm, ⟨25, _⟩ => ⟨S20000, .i1⟩
  | .hbm, ⟨26, _⟩ => ⟨S20000, .f32⟩
  | .hbm, ⟨27, _⟩ => ⟨S_, .f32⟩
  | .hbm, ⟨28, _⟩ => ⟨S_, .f32⟩
  | .hbm, ⟨29, _⟩ => ⟨S20000, .f32⟩
  | .hbm, ⟨30, _⟩ => ⟨S20000, .f32⟩
  | .hbm, ⟨31, _⟩ => ⟨S20000x1, .f32⟩
  | .hbm, ⟨32, _⟩ => ⟨S20000x512, .f32⟩
  | .hbm, ⟨33, _⟩ => ⟨S_, .i32⟩
  | .hbm, ⟨34, _⟩ => ⟨S340000, .i32⟩
  | .hbm, ⟨35, _⟩ => ⟨S340000, .i1⟩
  | .hbm, ⟨36, _⟩ => ⟨S_, .i32⟩
  | .hbm, ⟨37, _⟩ => ⟨S340000, .i32⟩
  | .hbm, ⟨38, _⟩ => ⟨S340000, .i32⟩
  | .hbm, ⟨39, _⟩ => ⟨S340000, .i32⟩
  | .hbm, ⟨40, _⟩ => ⟨S340000x1, .i32⟩
  | .hbm, ⟨41, _⟩ => ⟨S340000x512, .f32⟩
  | .hbm, ⟨42, _⟩ => ⟨S_, .f32⟩
  | .hbm, ⟨43, _⟩ => ⟨S20000x512, .f32⟩
  | .hbm, ⟨44, _⟩ => ⟨S340000x1, .i32⟩
  | .hbm, ⟨45, _⟩ => ⟨S20000x512, .f32⟩
  | .hbm, ⟨46, _⟩ => ⟨S1x512, .f32⟩
  | .hbm, ⟨47, _⟩ => ⟨S20000x512, .f32⟩
  | .hbm, ⟨48, _⟩ => ⟨S_, .i32⟩
  | .hbm, ⟨49, _⟩ => ⟨S340000, .i32⟩
  | .hbm, ⟨50, _⟩ => ⟨S340000, .i1⟩
  | .hbm, ⟨51, _⟩ => ⟨S_, .i32⟩
  | .hbm, ⟨52, _⟩ => ⟨S340000, .i32⟩
  | .hbm, ⟨53, _⟩ => ⟨S340000, .i32⟩
  | .hbm, ⟨54, _⟩ => ⟨S340000, .i32⟩
  | .hbm, ⟨55, _⟩ => ⟨S340000x1, .i32⟩
  | .hbm, ⟨56, _⟩ => ⟨S340000x512, .f32⟩
  | .hbm, ⟨57, _⟩ => ⟨S_, .f32⟩
  | .hbm, ⟨58, _⟩ => ⟨S20000x512, .f32⟩
  | .hbm, ⟨59, _⟩ => ⟨S340000x1, .i32⟩
  | .hbm, ⟨60, _⟩ => ⟨S20000x512, .f32⟩
  | .hbm, ⟨61, _⟩ => ⟨S1x512, .f32⟩
  | .hbm, ⟨62, _⟩ => ⟨S1x512, .f32⟩
  | .hbm, ⟨63, _⟩ => ⟨S1x128, .f32⟩
  | .hbm, ⟨64, _⟩ => ⟨S20000x128, .f32⟩
  | .local _ .vmem, ⟨0, _⟩ => ⟨S2000x512, .f32⟩
  | .local _ .vmem, ⟨1, _⟩ => ⟨S2000x512, .f32⟩
  | .local _ .vmem, ⟨2, _⟩ => ⟨S512x512, .f32⟩
  | .local _ .vmem, ⟨3, _⟩ => ⟨S2000x1, .f32⟩
  | .local _ .vmem, ⟨4, _⟩ => ⟨S2000x1, .f32⟩
  | .local _ .vmem, ⟨5, _⟩ => ⟨S2000x512, .f32⟩
  | .local _ .vmem, ⟨6, _⟩ => ⟨S2000x512, .f32⟩
  | .local _ .vmem, ⟨7, _⟩ => ⟨S2000x512, .f32⟩
  | .local _ .vmem, ⟨8, _⟩ => ⟨S2000x512, .f32⟩
  | .local _ .vmem, ⟨9, _⟩ => ⟨S2000x1, .f32⟩
  | .local _ .vmem, ⟨10, _⟩ => ⟨S2000x1, .f32⟩
  | .local _ .vmem, ⟨11, _⟩ => ⟨S1x512, .f32⟩
  | .local _ .vmem, ⟨12, _⟩ => ⟨S512x512, .f32⟩
  | .local _ .vmem, ⟨13, _⟩ => ⟨S2000x512, .f32⟩
  | .local _ .vmem, ⟨14, _⟩ => ⟨S2000x512, .f32⟩
  | .local _ .vmem, ⟨15, _⟩ => ⟨S2000x512, .f32⟩
  | .local _ .vmem, ⟨16, _⟩ => ⟨S2000x512, .f32⟩
  | .local _ .vmem, ⟨17, _⟩ => ⟨S2000x1, .f32⟩
  | .local _ .vmem, ⟨18, _⟩ => ⟨S2000x1, .f32⟩
  | .local _ .vmem, ⟨19, _⟩ => ⟨S1x512, .f32⟩
  | .local _ .vmem, ⟨20, _⟩ => ⟨S512x512, .f32⟩
  | .local _ .vmem, ⟨21, _⟩ => ⟨S1x512, .f32⟩
  | .local _ .vmem, ⟨22, _⟩ => ⟨S512x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | _, _ => ⟨S20000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg7_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem7_1 : DmaSem sig := 25

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x512 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S512x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  shapeCasts_S20000_S20000x1 : S20000.ShapeCasts S20000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  bcast_S_S20000x512 : S_.BroadcastsInDim S20000x512 (![] : Fin 0 → Fin S20000x512.rank)
  shapeCasts_S512_S1x512 : S512.ShapeCasts S1x512
  shapeCasts_S2000x512_S2000x512 : S2000x512.ShapeCasts S2000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  shapeCasts_S128_S1x128 : S128.ShapeCasts S1x128
  inb_S512x128_S512x128_0_0 : ∀ a, (![0, 0] : Fin 2 → Nat) a + S512x128.size a ≤ S512x128.size a
  h_S512x128 : 0 < S512x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  scatter_S20000_S340000x1_S340000_n_0_0_1_wf : ScatterDims.WF S20000 S340000x1 S340000 [] [0] [0] 1
  dot_S2000x512_S512x512_S2000x512_1_0_0_1_n_n_wf : DotDims.WF S2000x512 S512x512 S2000x512 [1] [0] [0] [1] [] []
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1
  dot_S2000x512_S512x128_S2000x128_1_0_0_1_n_n_wf : DotDims.WF S2000x512 S512x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S20000x512.size a
  hwx0_0 : ∀ i : grid0.Coords, EltTy.bits .f32 = 32 ∨ (Rect.block (s := S20000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .f32 = 32 ∨ (Rect.block (s := S512x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S20000x1.size a
  hwx0_2 : ∀ i : grid0.Coords, EltTy.bits .f32 = 32 ∨ (Rect.block (s := S20000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x512.size a ≤ S20000x512.size a
  hwx0_3 : ∀ i : grid0.Coords, EltTy.bits .f32 = 32 ∨ (Rect.block (s := S20000x512) S2000x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x512.size a ≤ S20000x512.size a
  hwx1_0 : ∀ i : grid1.Coords, EltTy.bits .f32 = 32 ∨ (Rect.block (s := S20000x512) S2000x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S20000x1.size a
  hwx1_1 : ∀ i : grid1.Coords, EltTy.bits .f32 = 32 ∨ (Rect.block (s := S20000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x512.size a ≤ S512x512.size a
  hwx1_3 : ∀ i : grid1.Coords, EltTy.bits .f32 = 32 ∨ (Rect.block (s := S512x512) S512x512.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x512.size a ≤ S20000x512.size a
  hwx1_4 : ∀ i : grid1.Coords, EltTy.bits .f32 = 32 ∨ (Rect.block (s := S20000x512) S2000x512.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x512.size a ≤ S20000x512.size a
  hwx2_0 : ∀ i : grid2.Coords, EltTy.bits .f32 = 32 ∨ (Rect.block (s := S20000x512) S2000x512.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S20000x1.size a
  hwx2_1 : ∀ i : grid2.Coords, EltTy.bits .f32 = 32 ∨ (Rect.block (s := S20000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x512.size a ≤ S512x512.size a
  hwx2_3 : ∀ i : grid2.Coords, EltTy.bits .f32 = 32 ∨ (Rect.block (s := S512x512) S512x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x512.size a ≤ S1x512.size a
  hwx2_4 : ∀ i : grid2.Coords, EltTy.bits .f32 = 32 ∨ (Rect.block (s := S1x512) S1x512.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S512x128.size a ≤ S512x128.size a
  hwx2_5 : ∀ i : grid2.Coords, EltTy.bits .f32 = 32 ∨ (Rect.block (s := S512x128) S512x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S20000x128.size a
  hwx2_7 : ∀ i : grid2.Coords, EltTy.bits .f32 = 32 ∨ (Rect.block (s := S20000x128) S2000x128.size (cc2_transform_7 i) (hinb2_7 i)).WholeWords (EltTy.packing .f32)

variable [Facts₀]

def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def dot_S2000x512_S512x512_S2000x512_1_0_0_1_n_n : DotDims S2000x512 S512x512 S2000x512 where
  lhsContracting := [1]
  rhsContracting := [0]
  lhsNonContracting := [0]
  rhsNonContracting := [1]
  lhsBatch := []
  rhsBatch := []
  wf := dot_S2000x512_S512x512_S2000x512_1_0_0_1_n_n_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S2000x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S512x512.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S2000x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S2000x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S512x512.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x512.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S512x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v41) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v42) S2000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S20000x512 : Shape := ⟨2, ![20000, 512]⟩
abbrev S2x320000 : Shape := ⟨2, ![2, 320000]⟩
abbrev S512x512 : Shape := ⟨2, ![512, 512]⟩
abbrev S512 : Shape := ⟨1, ![512]⟩
abbrev S512x128 : Shape := ⟨2, ![512, 128]⟩
abbrev S128 : Shape := ⟨1, ![128]⟩
abbrev S20000 : Shape := ⟨1, ![20000]⟩
abbrev S1x320000 : Shape := ⟨2, ![1, 320000]⟩
abbrev S320000 : Shape := ⟨1, ![320000]⟩
abbrev S340000 : Shape := ⟨1, ![340000]⟩
abbrev S_ : Shape := ⟨0, ![]⟩
abbrev S340000x1 : Shape := ⟨2, ![340000, 1]⟩
abbrev S340000x512 : Shape := ⟨2, ![340000, 512]⟩
abbrev S1x512 : Shape := ⟨2, ![1, 512]⟩
abbrev S20000x128 : Shape := ⟨2, ![20000, 128]⟩
abbrev S1x128 : Shape := ⟨2, ![1, 128]⟩
abbrev S20000x1 : Shape := ⟨2, ![20000, 1]⟩

abbrev nBuf : Space → Nat
  | .hbm => 154
  | .vmem => 0
  | .smem => 0
  | _ => 0

abbrev hbmTy0_0 (i : Nat) : BufTy := match i % 128 with
  | 0 => ⟨S20000x512, .f32⟩
  | 1 => ⟨S2x320000, .i32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x128, .f32⟩
  | 9 => ⟨S128, .f32⟩
  | 10 => ⟨S20000, .i32⟩
  | 11 => ⟨S1x320000, .i32⟩
  | 12 => ⟨S320000, .i32⟩
  | 13 => ⟨S340000, .i32⟩
  | 14 => ⟨S1x320000, .i32⟩
  | 15 => ⟨S320000, .i32⟩
  | 16 => ⟨S340000, .i32⟩
  | 17 => ⟨S20000x512, .f32⟩
  | 18 => ⟨S_, .f32⟩
  | 19 => ⟨S340000, .f32⟩
  | 20 => ⟨S_, .f32⟩
  | 21 => ⟨S20000, .f32⟩
  | 22 => ⟨S340000x1, .i32⟩
  | 23 => ⟨S20000, .f32⟩
  | 24 => ⟨S_, .f32⟩
  | 25 => ⟨S20000, .f32⟩
  | 26 => ⟨S20000, .i1⟩
  | 27 => ⟨S20000, .f32⟩
  | 28 => ⟨S_, .f32⟩
  | 29 => ⟨S_, .f32⟩
  | 30 => ⟨S20000, .f32⟩
  | 31 => ⟨S20000, .f32⟩
  | 32 => ⟨S_, .i32⟩
  | 33 => ⟨S340000, .i32⟩
  | 34 => ⟨S340000, .i1⟩
  | 35 => ⟨S_, .i32⟩
  | 36 => ⟨S340000, .i32⟩
  | 37 => ⟨S340000, .i32⟩
  | 38 => ⟨S340000, .i32⟩
  | 39 => ⟨S340000x1, .i32⟩
  | 40 => ⟨S340000, .f32⟩
  | 41 => ⟨S_, .i32⟩
  | 42 => ⟨S340000, .i32⟩
  | 43 => ⟨S340000, .i1⟩
  | 44 => ⟨S_, .i32⟩
  | 45 => ⟨S340000, .i32⟩
  | 46 => ⟨S340000, .i32⟩
  | 47 => ⟨S340000, .i32⟩
  | 48 => ⟨S340000x1, .i32⟩
  | 49 => ⟨S340000, .f32⟩
  | 50 => ⟨S340000, .f32⟩
  | 51 => ⟨S_, .i32⟩
  | 52 => ⟨S340000, .i32⟩
  | 53 => ⟨S340000, .i1⟩
  | 54 => ⟨S_, .i32⟩
  | 55 => ⟨S340000, .i32⟩
  | 56 => ⟨S340000, .i32⟩
  | 57 => ⟨S340000, .i32⟩
  | 58 => ⟨S340000x1, .i32⟩
  | 59 => ⟨S340000x512, .f32⟩
  | 60 => ⟨S340000x1, .f32⟩
  | 61 => ⟨S340000x512, .f32⟩
  | 62 => ⟨S340000x512, .f32⟩
  | 63 => ⟨S_, .f32⟩
  | 64 => ⟨S20000x512, .f32⟩
  | 65 => ⟨S340000x1, .i32⟩
  | 66 => ⟨S20000x512, .f32⟩
  | 67 => ⟨S1x512, .f32⟩
  | 68 => ⟨S20000x512, .f32⟩
  | 69 => ⟨S20000x512, .f32⟩
  | 70 => ⟨S_, .f32⟩
  | 71 => ⟨S20000x512, .f32⟩
  | 72 => ⟨S20000x512, .f32⟩
  | 73 => ⟨S20000x512, .f32⟩
  | 74 => ⟨S_, .f32⟩
  | 75 => ⟨S340000, .f32⟩
  | 76 => ⟨S_, .f32⟩
  | 77 => ⟨S20000, .f32⟩
  | 78 => ⟨S340000x1, .i32⟩
  | 79 => ⟨S20000, .f32⟩
  | 80 => ⟨S_, .f32⟩
  | 81 => ⟨S20000, .f32⟩
  | 82 => ⟨S20000, .i1⟩
  | 83 => ⟨S20000, .f32⟩
  | 84 => ⟨S_, .f32⟩
  | 85 => ⟨S_, .f32⟩
  | 86 => ⟨S20000, .f32⟩
  | 87 => ⟨S20000, .f32⟩
  | 88 => ⟨S_, .i32⟩
  | 89 => ⟨S340000, .i32⟩
  | 90 => ⟨S340000, .i1⟩
  | 91 => ⟨S_, .i32⟩
  | 92 => ⟨S340000, .i32⟩
  | 93 => ⟨S340000, .i32⟩
  | 94 => ⟨S340000, .i32⟩
  | 95 => ⟨S340000x1, .i32⟩
  | 96 => ⟨S340000, .f32⟩
  | 97 => ⟨S_, .i32⟩
  | 98 => ⟨S340000, .i32⟩
  | 99 => ⟨S340000, .i1⟩
  | 100 => ⟨S_, .i32⟩
  | 101 => ⟨S340000, .i32⟩
  | 102 => ⟨S340000, .i32⟩
  | 103 => ⟨S340000, .i32⟩
  | 104 => ⟨S340000x1, .i32⟩
  | 105 => ⟨S340000, .f32⟩
  | 106 => ⟨S340000, .f32⟩
  | 107 => ⟨S_, .i32⟩
  | 108 => ⟨S340000, .i32⟩
  | 109 => ⟨S340000, .i1⟩
  | 110 => ⟨S_, .i32⟩
  | 111 => ⟨S340000, .i32⟩
  | 112 => ⟨S340000, .i32⟩
  | 113 => ⟨S340000, .i32⟩
  | 114 => ⟨S340000x1, .i32⟩
  | 115 => ⟨S340000x512, .f32⟩
  | 116 => ⟨S340000x1, .f32⟩
  | 117 => ⟨S340000x512, .f32⟩
  | 118 => ⟨S340000x512, .f32⟩
  | 119 => ⟨S_, .f32⟩
  | 120 => ⟨S20000x512, .f32⟩
  | 121 => ⟨S340000x1, .i32⟩
  | 122 => ⟨S20000x512, .f32⟩
  | 123 => ⟨S1x512, .f32⟩
  | 124 => ⟨S20000x512, .f32⟩
  | 125 => ⟨S20000x512, .f32⟩
  | 126 => ⟨S_, .f32⟩
  | 127 => ⟨S20000x512, .f32⟩
  | _ => ⟨S20000x512, .f32⟩

abbrev hbmTy0_1 (i : Nat) : BufTy := match i % 128 with
  | 0 => ⟨S20000x512, .f32⟩
  | 1 => ⟨S20000x512, .f32⟩
  | 2 => ⟨S1x512, .f32⟩
  | 3 => ⟨S20000x512, .f32⟩
  | 4 => ⟨S20000x512, .f32⟩
  | 5 => ⟨S_, .f32⟩
  | 6 => ⟨S20000x512, .f32⟩
  | 7 => ⟨S20000x512, .f32⟩
  | 8 => ⟨S20000x128, .f32⟩
  | 9 => ⟨S1x128, .f32⟩
  | 10 => ⟨S20000x128, .f32⟩
  | 11 => ⟨S20000x128, .f32⟩
  | 12 => ⟨S_, .f32⟩
  | 13 => ⟨S20000, .f32⟩
  | 14 => ⟨S_, .f32⟩
  | 15 => ⟨S20000, .f32⟩
  | 16 => ⟨S20000, .f32⟩
  | 17 => ⟨S20000x1, .f32⟩
  | 18 => ⟨S20000x128, .f32⟩
  | 19 => ⟨S20000x128, .f32⟩
  | 20 => ⟨S20000x128, .f32⟩
  | 21 => ⟨S_, .f32⟩
  | 22 => ⟨S20000, .f32⟩
  | 23 => ⟨S20000x1, .f32⟩
  | 24 => ⟨S20000x128, .f32⟩
  | 25 => ⟨S20000x128, .f32⟩
  | _ => ⟨S20000x512, .f32⟩

abbrev hbmTy (i : Nat) : BufTy := match i / 128 with
  | 0 => hbmTy0_0 i
  | 1 => hbmTy0_1 i
  | _ => ⟨S20000x512, .f32⟩

abbrev bufTy : (tb : Table) → Fin (tcTables nBuf tb) → BufTy
  | .hbm, ⟨i, _⟩ => hbmTy i
  | _, _ => ⟨S20000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_c_4 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_c_7 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_call1_cst : Ref sig .tc := ⟨.hbm, 70, rfl⟩
abbrev main_call1_v0 : Ref sig .tc := ⟨.hbm, 71, rfl⟩
abbrev main_v47 : Ref sig .tc := ⟨.hbm, 72, rfl⟩
abbrev main_v48 : Ref sig .tc := ⟨.hbm, 73, rfl⟩
abbrev main_cst_9 : Ref sig .tc := ⟨.hbm, 74, rfl⟩
abbrev main_v49 : Ref sig .tc := ⟨.hbm, 75, rfl⟩
abbrev main_cst_10 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_11 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_call2_v0 : Ref sig .tc := ⟨.hbm, 85, rfl⟩
abbrev main_call2_v1 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_17 : Ref sig .tc := ⟨.hbm, 107, rfl⟩
abbrev main_v72 : Ref sig .tc := ⟨.hbm, 108, rfl⟩
abbrev main_v73 : Ref sig .tc := ⟨.hbm, 109, rfl⟩
abbrev main_c_18 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_19 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_call3_cst : Ref sig .tc := ⟨.hbm, 126, rfl⟩
abbrev main_call3_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call4_cst : Ref sig .tc := ⟨.hbm, 133, rfl⟩
abbrev main_call4_v0 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_cst_20 : Ref sig .tc := ⟨.hbm, 140, rfl⟩
abbrev main_v98 : Ref sig .tc := ⟨.hbm, 141, rfl⟩
abbrev main_cst_21 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_cst_22 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  concatenates_S320000_S20000_S340000_d0 : Shape.Concatenates [S320000, S20000] S340000 0
  slices_S2x320000_S1x320000_1_0 : S2x320000.Slices ![1, 0] S1x320000
  bcast_S_S340000 : S_.BroadcastsInDim S340000 (![] : Fin 0 → Fin S340000.rank)
  bcast_S_S20000 : S_.BroadcastsInDim S20000 (![] : Fin 0 → Fin S20000.rank)
  bcast_S340000_S340000x1_0 : S340000.BroadcastsInDim S340000x1 (![0] : Fin 1 → Fin S340000x1.rank)
  bcast_S340000x1_S340000x512_0_1 : S340000x1.BroadcastsInDim S340000x512 (![0, 1] : Fin 2 → Fin S340000x512.rank)
  bcast_S_S20000x512 : S_.BroadcastsInDim S20000x512 (![] : Fin 0 → Fin S20000x512.rank)
  bcast_S512_S1x512_1 : S512.BroadcastsInDim S1x512 (![1] : Fin 1 → Fin S1x512.rank)
  bcast_S1x512_S20000x512_0_1 : S1x512.BroadcastsInDim S20000x512 (![0, 1] : Fin 2 → Fin S20000x512.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  reducesTo_S20000x128_S20000_d1 : S20000x128.ReducesTo [1] S20000
  h_S_ : 0 < S_.numel
  bcast_S20000_S20000x1_0 : S20000.BroadcastsInDim S20000x1 (![0] : Fin 1 → Fin S20000x1.rank)
  bcast_S20000x1_S20000x128_0_1 : S20000x1.BroadcastsInDim S20000x128 (![0, 1] : Fin 2 → Fin S20000x128.rank)
  dot_S20000x512_S512x512_S20000x512_1_0_0_1_n_n_wf : DotDims.WF S20000x512 S512x512 S20000x512 [1] [0] [0] [1] [] []
  scatter_S20000_S340000x1_S340000_n_0_0_1_wf : ScatterDims.WF S20000 S340000x1 S340000 [] [0] [0] 1
  gather_S20000_S340000x1_S340000_n_0_n_n_0_1_1_wf : GatherDims.WF S20000 S340000x1 S340000 [] [0] [] [0] [] 1 ![1]
  gather_S20000x512_S340000x1_S340000x512_1_0_n_n_0_1_1512_wf : GatherDims.WF S20000x512 S340000x1 S340000x512 [1] [0] [] [0] [] 1 ![1, 512]
  scatter_S20000x512_S340000x1_S340000x512_1_0_0_1_wf : ScatterDims.WF S20000x512 S340000x1 S340000x512 [1] [0] [0] 1
  dot_S20000x512_S512x128_S20000x128_1_0_0_1_n_n_wf : DotDims.WF S20000x512 S512x128 S20000x128 [1] [0] [0] [1] [] []

variable [Facts₀]

def dot_S20000x512_S512x512_S20000x512_1_0_0_1_n_n : DotDims S20000x512 S512x512 S20000x512 where
  lhsContracting := [1]
  rhsContracting := [0]
  lhsNonContracting := [0]
  rhsNonContracting := [1]
  lhsBatch := []
  rhsBatch := []
  wf := dot_S20000x512_S512x512_S20000x512_1_0_0_1_n_n_wf
def scatter_S20000_S340000x1_S340000_n_0_0_1 : ScatterDims S20000 S340000x1 S340000 where
  updateWindowDims := []
  insertedWindowDims := [0]
  scatterDimsToOperandDims := [0]
  indexVectorDim := 1
  wf := scatter_S20000_S340000x1_S340000_n_0_0_1_wf
def gather_S20000_S340000x1_S340000_n_0_n_n_0_1_1 : GatherDims S20000 S340000x1 S340000 where
  offsetDims := []
  collapsedSliceDims := [0]
  operandBatchingDims := []
  startIndicesBatchingDims := []
  startIndexMap := [0]
  indexVectorDim := 1
  sliceSizes := ![1]
  wf := gather_S20000_S340000x1_S340000_n_0_n_n_0_1_1_wf
def gather_S20000x512_S340000x1_S340000x512_1_0_n_n_0_1_1512 : GatherDims S20000x512 S340000x1 S340000x512 where
  offsetDims := [1]
  collapsedSliceDims := [0]
  operandBatchingDims := []
  startIndicesBatchingDims := []
  startIndexMap := [0]
  indexVectorDim := 1
  sliceSizes := ![1, 512]
  wf := gather_S20000x512_S340000x1_S340000x512_1_0_n_n_0_1_1512_wf
def scatter_S20000x512_S340000x1_S340000x512_1_0_0_1 : ScatterDims S20000x512 S340000x1 S340000x512 where
  updateWindowDims := [1]
  insertedWindowDims := [0]
  scatterDimsToOperandDims := [0]
  indexVectorDim := 1
  wf := scatter_S20000x512_S340000x1_S340000x512_1_0_0_1_wf
def dot_S20000x512_S512x128_S20000x128_1_0_0_1_n_n : DotDims S20000x512 S512x128 S20000x128 where
  lhsContracting := [1]
  rhsContracting := [0]
  lhsNonContracting := [0]
  rhsNonContracting := [1]
  lhsBatch := []
  rhsBatch := []
  wf := dot_S20000x512_S512x128_S20000x128_1_0_0_1_n_n_wf

class Facts : Prop extends Facts₀ where

variable [Facts]
-- ==== Proof.KRun.lean ====
/-
  The idealized kernel's run with its RESULT named. Every weakly fair execution of the kernel program from a memory
  with zero counters terminates without a fault, and in the final state the result array (the class-probability table the
  third region writes) holds what the fold of the program's segments leaves at that buffer: the contents after the last
  region's write-backs (`W8`), the argument arrays being as launched. This is the frame statement with one more
  conjunct: the final thread state is read at the result buffer as well as at the arguments.
-/
import proofs.«151695_j15977278341604_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: termination without a fault; the result array at the last boundary's contents; the arguments unchanged. -/
theorem run : θ_run defs (onTc (τ := τ) (main (F := F))) ⟨m, fun _ => 0, ρ⟩ (fun r => ∀ c : Dev nD,
      r.2.mem ((c.tc : Thread nD τ).loc main_v42) = W8 m ρ c (Proc.devRef .tc main_v42)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v42 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

end Cert.KernelIdeal.KRun

end
-- ==== Proof.Spec.lean ====
/-
  The graph network's layers as plain functions of arrays, index by index over the extended reals, and the algebra that
  joins the two ways of normalising an aggregation.

  A node table has one row per node. The network's building blocks, each acting row by row:
  * a SCALED PRODUCT: (X · W)(n, c) · d(n) — a dense layer's product, each row multiplied by that node's factor d(n);
  * an AGGREGATION'S EPILOGUE: max (d(n) · A(n, k) + b(k), 0) — the node's factor applied to its aggregated row, the
    bias added, negatives cut off;
  * a DENSE LAYER with cut-off: max ((H · W)(n, c) + b(c), 0); the LOGITS (H · W)(n, c) + b(c);
  * the ROW SOFTMAX: exp (L(n, q) − M(n)) / Σ_q' exp (L(n, q') − M(n)), M(n) the row's maximum (the fold of max from −∞).
  Every block reads only row n of its table arguments, so a block computed on a contiguous range of rows is the
  restriction of the block computed on the whole table (the `_rows` lemmas): this is what a row-tiled computation uses.

  The algebra. A node's factor d is 1/√deg where the degree is positive and 0 elsewhere: a finite, non-negative real
  whatever the degree (`normFactor_nonneg`, `normFactor_ne_top`). Multiplication by such a number distributes over a
  finite sum of extended reals (`mul_sum_of_nonneg_of_ne_top`), although multiplication by an arbitrary extended real
  does not. Hence the LAYER LAW: scaling every message by the sender's factor, summing the messages that arrive at node
  n, and scaling the sum by n's factor, equals summing the messages each scaled by the product of the sender's and the
  receiver's factors — the receiver of a message that arrives at n being n.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-! ## Coordinates of a two-axis index -/

/-- The row of a two-axis index. -/
abbrev rowOf {a b : ℕ} (i : (⟨2, ![a, b]⟩ : Shape).Idx) : Fin a := ⟨(i 0).val, idx2_lt0 i⟩
/-- The column of a two-axis index. -/
abbrev colOf {a b : ℕ} (i : (⟨2, ![a, b]⟩ : Shape).Idx) : Fin b := ⟨(i 1).val, idx2_lt1 i⟩

theorem rowOf_ix2 {a b : ℕ} (p : Fin a) (q : Fin b) : rowOf (ix2 p q) = p := rfl
theorem colOf_ix2 {a b : ℕ} (p : Fin a) (q : Fin b) : colOf (ix2 p q) = q := rfl

/-- The float zero and the float minus infinity, as the words the programs write them with. -/
abbrev zeroF : EReal := Ideal.ofBits .f32 0x00000000#32
abbrev negInfF : EReal := Ideal.ofBits .f32 0xFF800000#32

/-! ## The layers, over a table of `a` rows -/

section Layers
variable {a : ℕ}

/-- (X · W)(n, c) · d(n). -/
def scaledProd {K C : ℕ} (X : FVec Ideal ⟨2, ![a, K]⟩ .f32) (W : FVec Ideal ⟨2, ![K, C]⟩ .f32)
    (d : FVec Ideal ⟨2, ![a, 1]⟩ .f32) : FVec Ideal ⟨2, ![a, C]⟩ .f32 :=
  fun i => (∑ k : Fin K, X (ix2 (rowOf i) k) * W (ix2 k (colOf i))) * d (ix2 (rowOf i) (0 : Fin 1))

/-- max (d(n) · A(n, k) + b(k), 0). -/
def epilogue {K : ℕ} (A : FVec Ideal ⟨2, ![a, K]⟩ .f32) (d : FVec Ideal ⟨2, ![a, 1]⟩ .f32)
    (b : FVec Ideal ⟨2, ![1, K]⟩ .f32) : FVec Ideal ⟨2, ![a, K]⟩ .f32 :=
  fun i => max (d (ix2 (rowOf i) (0 : Fin 1)) * A i + b (ix2 (0 : Fin 1) (colOf i))) zeroF

/-- (H · W)(n, c) + b(c). -/
def affine {K C : ℕ} (H : FVec Ideal ⟨2, ![a, K]⟩ .f32) (W : FVec Ideal ⟨2, ![K, C]⟩ .f32)
    (b : FVec Ideal ⟨2, ![1, C]⟩ .f32) : FVec Ideal ⟨2, ![a, C]⟩ .f32 :=
  fun i => (∑ k : Fin K, H (ix2 (rowOf i) k) * W (ix2 k (colOf i))) + b (ix2 (0 : Fin 1) (colOf i))

/-- max ((H · W)(n, c) + b(c), 0). -/
def dense {K C : ℕ} (H : FVec Ideal ⟨2, ![a, K]⟩ .f32) (W : FVec Ideal ⟨2, ![K, C]⟩ .f32)
    (b : FVec Ideal ⟨2, ![1, C]⟩ .f32) : FVec Ideal ⟨2, ![a, C]⟩ .f32 :=
  fun i => max (affine H W b i) zeroF

/-- A row's maximum: the fold of max from minus infinity over the row. -/
def rowMax {C : ℕ} (L : FVec Ideal ⟨2, ![a, C]⟩ .f32) (n : Fin a) : EReal :=
  (Finset.univ : Finset (Fin C)).fold max negInfF (fun q => L (ix2 n q))

/-- The row softmax. -/
def softmaxRows {C : ℕ} (L : FVec Ideal ⟨2, ![a, C]⟩ .f32) : FVec Ideal ⟨2, ![a, C]⟩ .f32 :=
  fun i => Ideal.div (Ideal.exp (L i - rowMax L (rowOf i)))
    (∑ q : Fin C, Ideal.exp (L (ix2 (rowOf i) q) - rowMax L (rowOf i)))

/-- The second layer's product from the first layer's aggregation: epilogue, then the scaled product. -/
def midLayer (A : FVec Ideal ⟨2, ![a, 512]⟩ .f32) (d : FVec Ideal ⟨2, ![a, 1]⟩ .f32)
    (b : FVec Ideal ⟨2, ![1, 512]⟩ .f32) (W : FVec Ideal ⟨2, ![512, 512]⟩ .f32) : FVec Ideal ⟨2, ![a, 512]⟩ .f32 :=
  scaledProd (epilogue A d b) W d

/-- The head from the second layer's aggregation: epilogue, a dense layer with cut-off, the logits, the row softmax. -/
def headLayer (A : FVec Ideal ⟨2, ![a, 512]⟩ .f32) (d : FVec Ideal ⟨2, ![a, 1]⟩ .f32)
    (b : FVec Ideal ⟨2, ![1, 512]⟩ .f32) (W1 : FVec Ideal ⟨2, ![512, 512]⟩ .f32) (b1 : FVec Ideal ⟨2, ![1, 512]⟩ .f32)
    (W2 : FVec Ideal ⟨2, ![512, 128]⟩ .f32) (b2 : FVec Ideal ⟨2, ![1, 128]⟩ .f32) : FVec Ideal ⟨2, ![a, 128]⟩ .f32 :=
  softmaxRows (affine (dense (epilogue A d b) W1 b1) W2 b2)

end Layers

/-! ## A layer on a range of rows is the restriction of the layer on the table -/

section Rows
variable {a a' : ℕ} (r : Fin a' → Fin a)

/-- The rows `r 0, r 1, …` of a table, as a table of `a'` rows. -/
def rowsOf {C : ℕ} (X : FVec Ideal ⟨2, ![a, C]⟩ .f32) : FVec Ideal ⟨2, ![a', C]⟩ .f32 :=
  fun y => X (ix2 (r (rowOf y)) (colOf y))

theorem rowsOf_ix2 {C : ℕ} (X : FVec Ideal ⟨2, ![a, C]⟩ .f32) (p : Fin a') (q : Fin C) :
    rowsOf r X (ix2 p q) = X (ix2 (r p) q) := rfl

theorem scaledProd_rows {K C : ℕ} (X : FVec Ideal ⟨2, ![a, K]⟩ .f32) (W : FVec Ideal ⟨2, ![K, C]⟩ .f32)
    (d : FVec Ideal ⟨2, ![a, 1]⟩ .f32) (p : Fin a') (q : Fin C) :
    scaledProd (rowsOf r X) W (rowsOf r d) (ix2 p q) = scaledProd X W d (ix2 (r p) q) := rfl

theorem epilogue_rows {K : ℕ} (A : FVec Ideal ⟨2, ![a, K]⟩ .f32) (d : FVec Ideal ⟨2, ![a, 1]⟩ .f32)
    (b : FVec Ideal ⟨2, ![1, K]⟩ .f32) :
    epilogue (rowsOf r A) (rowsOf r d) b = rowsOf r (epilogue A d b) := rfl

theorem affine_rows {K C : ℕ} (H : FVec Ideal ⟨2, ![a, K]⟩ .f32) (W : FVec Ideal ⟨2, ![K, C]⟩ .f32)
    (b : FVec Ideal ⟨2, ![1, C]⟩ .f32) : affine (rowsOf r H) W b = rowsOf r (affine H W b) := rfl

theorem dense_rows {K C : ℕ} (H : FVec Ideal ⟨2, ![a, K]⟩ .f32) (W : FVec Ideal ⟨2, ![K, C]⟩ .f32)
    (b : FVec Ideal ⟨2, ![1, C]⟩ .f32) : dense (rowsOf r H) W b = rowsOf r (dense H W b) := rfl

theorem softmaxRows_rows {C : ℕ} (L : FVec Ideal ⟨2, ![a, C]⟩ .f32) :
    softmaxRows (rowsOf r L) = rowsOf r (softmaxRows L) := rfl

theorem midLayer_rows (A : FVec Ideal ⟨2, ![a, 512]⟩ .f32) (d : FVec Ideal ⟨2, ![a, 1]⟩ .f32)
    (b : FVec Ideal ⟨2, ![1, 512]⟩ .f32) (W : FVec Ideal ⟨2, ![512, 512]⟩ .f32) (p : Fin a') (q : Fin 512) :
    midLayer (rowsOf r A) (rowsOf r d) b W (ix2 p q) = midLayer A d b W (ix2 (r p) q) := rfl

theorem headLayer_rows (A : FVec Ideal ⟨2, ![a, 512]⟩ .f32) (d : FVec Ideal ⟨2, ![a, 1]⟩ .f32)
    (b : FVec Ideal ⟨2, ![1, 512]⟩ .f32) (W1 : FVec Ideal ⟨2, ![512, 512]⟩ .f32) (b1 : FVec Ideal ⟨2, ![1, 512]⟩ .f32)
    (W2 : FVec Ideal ⟨2, ![512, 128]⟩ .f32) (b2 : FVec Ideal ⟨2, ![1, 128]⟩ .f32) (p : Fin a') (q : Fin 128) :
    headLayer (rowsOf r A) (rowsOf r d) b W1 b1 W2 b2 (ix2 p q) = headLayer A d b W1 b1 W2 b2 (ix2 (r p) q) := rfl

end Rows

/-! ## The algebra -/

/-- Multiplication by a finite non-negative number distributes over a finite sum of extended reals. -/
theorem mul_sum_of_nonneg_of_ne_top {ι : Type*} (s : Finset ι) (f : ι → EReal) {x : EReal} (h0 : 0 ≤ x) (ht : x ≠ ⊤) :
    x * ∑ i ∈ s, f i = ∑ i ∈ s, x * f i := by
  classical
  induction s using Finset.induction_on with
  | empty => simp
  | insert i s hi ih =>
    rw [Finset.sum_insert hi, Finset.sum_insert hi, EReal.left_distrib_of_nonneg_of_ne_top h0 ht, ih]

/-- A node's normalisation factor from its degree: 1/√deg where the degree is positive, 0 elsewhere. -/
def normFactor (deg : EReal) : EReal :=
  Scalar.select (Ideal.cmp .ogt deg zeroF) (Ideal.rsqrt deg) zeroF

theorem zeroF_eq : zeroF = 0 := Ideal.ofBits_zero_f32

theorem normFactor_cases (deg : EReal) : 0 ≤ normFactor deg ∧ normFactor deg ≠ ⊤ := by
  unfold normFactor Scalar.select Ideal.cmp
  rw [zeroF_eq]
  by_cases h : (0 : EReal) < deg
  · have hb : BitVec.ofBool (decide ((0 : EReal) < deg)) = 1 := by simp [h]
    rw [if_pos hb]
    induction deg using EReal.rec with
    | bot => exact absurd h (by simp)
    | top => simp
    | coe r =>
      have hr : 0 < r := by exact_mod_cast h
      rw [Ideal.rsqrt_coe, if_neg (not_lt.mpr hr.le), if_neg hr.ne']
      refine ⟨?_, EReal.coe_ne_top _⟩
      exact_mod_cast inv_nonneg.mpr (Real.sqrt_nonneg r)
  · have hb : ¬ BitVec.ofBool (decide ((0 : EReal) < deg)) = 1 := by simp [h]
    rw [if_neg hb]
    exact ⟨le_refl _, EReal.zero_ne_top⟩

theorem normFactor_nonneg (deg : EReal) : 0 ≤ normFactor deg := (normFactor_cases deg).1
theorem normFactor_ne_top (deg : EReal) : normFactor deg ≠ ⊤ := (normFactor_cases deg).2

/-- THE LAYER LAW, for one column of messages. `h (s u)` is message `u`'s value (the sender `s u`'s feature), `dv` the
    nodes' factors, `D u` the receiver's index word, `dn u` the receiver as the factor's table reads it; a message that
    arrives at node `n` (`D u = n`) has receiver `n` (`hdn`). Scaling by the sender, summing the arrivals at `n` and scaling by `n`
    is summing the arrivals each scaled by sender and receiver. -/
theorem layer_law {U N : ℕ} (h : Fin N → EReal) (dv : Fin N → EReal) (hd0 : ∀ n, 0 ≤ dv n) (hdt : ∀ n, dv n ≠ ⊤)
    (s : Fin U → Fin N) (D : Fin U → ℤ) (dn : Fin U → Fin N) (hdn : ∀ u (n : Fin N), D u = (n.val : ℤ) → dn u = n)
    (n : Fin N) :
    dv n * (zeroF + ∑ u : Fin U, if D u = (n.val : ℤ) then h (s u) * dv (s u) else 0)
      = zeroF + ∑ u : Fin U, if D u = (n.val : ℤ) then h (s u) * (dv (s u) * dv (dn u)) else 0 := by
  rw [zeroF_eq, zero_add, zero_add, mul_sum_of_nonneg_of_ne_top _ _ (hd0 n) (hdt n)]
  refine Finset.sum_congr rfl fun u _ => ?_
  by_cases hu : D u = (n.val : ℤ)
  · rw [if_pos hu, if_pos hu, hdn u n hu, mul_comm (dv n), mul_assoc]
  · rw [if_neg hu, if_neg hu, mul_zero]

/-- The maximum of minus infinity and a fold of max from minus infinity is that fold. -/
theorem max_negInf_fold {ι : Type*} (s : Finset ι) (f : ι → EReal) :
    max negInfF (s.fold max negInfF f) = s.fold max negInfF f :=
  max_eq_right (Finset.le_fold_max (c := negInfF) |>.mpr (Or.inl (le_refl _)))

end Cert.Gcn

end
-- ==== Proof.LibLayout.lean ====
/-
  Two reads of a broadcast at an index, over literal two-axis shapes.
  A column of shape [a, 1] broadcast along the second axis to [a, b] holds, at (p, c), the column's entry of row p: the
  second coordinate is forgotten. This is the companion of the row case (a [1, b] row broadcast to [a, b] holds at (p, c)
  the row's entry c), which the library states.
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- A column [a, 1] broadcast to [a, b] reads, at (p, c), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibLayout
-- ==== Proof.KPay.lean ====
/-
  The three kernel bodies' arithmetic on one block of 2000 rows, as the network's layers (Spec.lean) on a table of 2000 rows.
  A body loads whole blocks, so its stored value is a pure term of the loaded blocks: a block product into a zero
  accumulator (at the ideal values the sum over the contracted axis of the products, the change of float format of its
  operands being the identity), columns [2000, 1] and rows [1, C] spread over the block, pointwise sums, products,
  maxima against the zero word, and, in the last body, the row maximum and the row sum of a block of 128 columns kept as
  columns [2000, 1] and spread back.
  * first body:  (X · W)(p, q) · d(p)                                 — `scaledProd`;
  * second body: the same product of the aggregation's epilogue       — `midLayer`;
  * third body:  epilogue, dense layer with cut-off, logits, softmax  — `headLayer`.
-/
import proofs.«151695_j15977278341604_2_alg».proof.Proof.Gen.KernelIdeal.Skeleton
import proofs.«151695_j15977278341604_2_alg».proof.Proof.Spec
import proofs.«151695_j15977278341604_2_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.KPay

open Cert.KernelIdeal Cert.KernelIdeal.Gen Cert.Gcn Idealize.ShloMosaic Idealize.ShloMosaic.ValueIdx

/-! ## The block products -/

theorem mm512_apply_l0 (i : S2000x512.Idx) (k : dot_S2000x512_S512x512_S2000x512_1_0_0_1_n_n.contr.Idx) : (dot_S2000x512_S512x512_S2000x512_1_0_0_1_n_n.lhsIdx i k 0).val = (i 0).val := by
  unfold DotDims.lhsIdx
  rw [dif_neg (show ¬(0 : Fin S2000x512.rank) ∈ dot_S2000x512_S512x512_S2000x512_1_0_0_1_n_n.lhsBatch by decide), dif_pos (show (0 : Fin S2000x512.rank) ∈ dot_S2000x512_S512x512_S2000x512_1_0_0_1_n_n.lhsNonContracting by decide)]
  rfl
theorem mm512_apply_l1 (i : S2000x512.Idx) (k : dot_S2000x512_S512x512_S2000x512_1_0_0_1_n_n.contr.Idx) : (dot_S2000x512_S512x512_S2000x512_1_0_0_1_n_n.lhsIdx i k 1).val = (k ⟨0, by decide⟩).val :=
  dot_S2000x512_S512x512_S2000x512_1_0_0_1_n_n.lhsIdx_val_of_single rfl i k
theorem mm512_apply_r0 (i : S2000x512.Idx) (k : dot_S2000x512_S512x512_S2000x512_1_0_0_1_n_n.contr.Idx) : (dot_S2000x512_S512x512_S2000x512_1_0_0_1_n_n.rhsIdx i k 0).val = (k ⟨0, by decide⟩).val :=
  dot_S2000x512_S512x512_S2000x512_1_0_0_1_n_n.rhsIdx_val_of_single rfl i k
theorem mm512_apply_r1 (i : S2000x512.Idx) (k : dot_S2000x512_S512x512_S2000x512_1_0_0_1_n_n.contr.Idx) : (dot_S2000x512_S512x512_S2000x512_1_0_0_1_n_n.rhsIdx i k 1).val = (i 1).val := by
  unfold DotDims.rhsIdx
  rw [dif_neg (show ¬(1 : Fin S512x512.rank) ∈ dot_S2000x512_S512x512_S2000x512_1_0_0_1_n_n.rhsBatch by decide), dif_pos (show (1 : Fin S512x512.rank) ∈ dot_S2000x512_S512x512_S2000x512_1_0_0_1_n_n.rhsNonContracting by decide)]
  rfl

/-- The block product read at (p, q): the sum over the contracted axis of the operands' products. -/
theorem mm512_apply {φ₁ φ₂ : FTy} (X : FVec Ideal S2000x512 φ₁) (W : FVec Ideal S512x512 φ₂) (p : Fin 2000) (q : Fin 512) :
    matmul dot_S2000x512_S512x512_S2000x512_1_0_0_1_n_n none X W (constant (F := Ideal) S2000x512 .f32 0x00000000#32) (ix2 p q) = ∑ k : Fin 512, X (ix2 p k) * W (ix2 k q) := by
  simp only [matmul]
  rw [Ideal.matmul_constant_zero_apply, ← Equiv.sum_comp (ValueIdx.contrEquiv1 dot_S2000x512_S512x512_S2000x512_1_0_0_1_n_n 512 rfl rfl).symm]
  refine Finset.sum_congr rfl fun k _ => ?_
  have hk := ValueIdx.contrEquiv1_symm_val dot_S2000x512_S512x512_S2000x512_1_0_0_1_n_n 512 rfl rfl k
  have el : dot_S2000x512_S512x512_S2000x512_1_0_0_1_n_n.lhsIdx (ix2 p q) ((ValueIdx.contrEquiv1 dot_S2000x512_S512x512_S2000x512_1_0_0_1_n_n 512 rfl rfl).symm k) = ix2 p k := funext fun a => Fin.ext (by
    match a with
    | ⟨0, _⟩ => exact mm512_apply_l0 _ _
    | ⟨1, _⟩ => exact (mm512_apply_l1 _ _).trans hk)
  have er : dot_S2000x512_S512x512_S2000x512_1_0_0_1_n_n.rhsIdx (ix2 p q) ((ValueIdx.contrEquiv1 dot_S2000x512_S512x512_S2000x512_1_0_0_1_n_n 512 rfl rfl).symm k) = ix2 k q := funext fun a => Fin.ext (by
    match a with
    | ⟨0, _⟩ => exact (mm512_apply_r0 _ _).trans hk
    | ⟨1, _⟩ => exact mm512_apply_r1 _ _)
  rw [el, er]

theorem mm128_apply_l0 (i : S2000x128.Idx) (k : dot_S2000x512_S512x128_S2000x128_1_0_0_1_n_n.contr.Idx) : (dot_S2000x512_S512x128_S2000x128_1_0_0_1_n_n.lhsIdx i k 0).val = (i 0).val := by
  unfold DotDims.lhsIdx
  rw [dif_neg (show ¬(0 : Fin S2000x512.rank) ∈ dot_S2000x512_S512x128_S2000x128_1_0_0_1_n_n.lhsBatch by decide), dif_pos (show (0 : Fin S2000x512.rank) ∈ dot_S2000x512_S512x128_S2000x128_1_0_0_1_n_n.lhsNonContracting by decide)]
  rfl
theorem mm128_apply_l1 (i : S2000x128.Idx) (k : dot_S2000x512_S512x128_S2000x128_1_0_0_1_n_n.contr.Idx) : (dot_S2000x512_S512x128_S2000x128_1_0_0_1_n_n.lhsIdx i k 1).val = (k ⟨0, by decide⟩).val :=
  dot_S2000x512_S512x128_S2000x128_1_0_0_1_n_n.lhsIdx_val_of_single rfl i k
theorem mm128_apply_r0 (i : S2000x128.Idx) (k : dot_S2000x512_S512x128_S2000x128_1_0_0_1_n_n.contr.Idx) : (dot_S2000x512_S512x128_S2000x128_1_0_0_1_n_n.rhsIdx i k 0).val = (k ⟨0, by decide⟩).val :=
  dot_S2000x512_S512x128_S2000x128_1_0_0_1_n_n.rhsIdx_val_of_single rfl i k
theorem mm128_apply_r1 (i : S2000x128.Idx) (k : dot_S2000x512_S512x128_S2000x128_1_0_0_1_n_n.contr.Idx) : (dot_S2000x512_S512x128_S2000x128_1_0_0_1_n_n.rhsIdx i k 1).val = (i 1).val := by
  unfold DotDims.rhsIdx
  rw [dif_neg (show ¬(1 : Fin S512x128.rank) ∈ dot_S2000x512_S512x128_S2000x128_1_0_0_1_n_n.rhsBatch by decide), dif_pos (show (1 : Fin S512x128.rank) ∈ dot_S2000x512_S512x128_S2000x128_1_0_0_1_n_n.rhsNonContracting by decide)]
  rfl

/-- The block product read at (p, q): the sum over the contracted axis of the operands' products. -/
theorem mm128_apply {φ₁ φ₂ : FTy} (X : FVec Ideal S2000x512 φ₁) (W : FVec Ideal S512x128 φ₂) (p : Fin 2000) (q : Fin 128) :
    matmul dot_S2000x512_S512x128_S2000x128_1_0_0_1_n_n none X W (constant (F := Ideal) S2000x128 .f32 0x00000000#32) (ix2 p q) = ∑ k : Fin 512, X (ix2 p k) * W (ix2 k q) := by
  simp only [matmul]
  rw [Ideal.matmul_constant_zero_apply, ← Equiv.sum_comp (ValueIdx.contrEquiv1 dot_S2000x512_S512x128_S2000x128_1_0_0_1_n_n 512 rfl rfl).symm]
  refine Finset.sum_congr rfl fun k _ => ?_
  have hk := ValueIdx.contrEquiv1_symm_val dot_S2000x512_S512x128_S2000x128_1_0_0_1_n_n 512 rfl rfl k
  have el : dot_S2000x512_S512x128_S2000x128_1_0_0_1_n_n.lhsIdx (ix2 p q) ((ValueIdx.contrEquiv1 dot_S2000x512_S512x128_S2000x128_1_0_0_1_n_n 512 rfl rfl).symm k) = ix2 p k := funext fun a => Fin.ext (by
    match a with
    | ⟨0, _⟩ => exact mm128_apply_l0 _ _
    | ⟨1, _⟩ => exact (mm128_apply_l1 _ _).trans hk)
  have er : dot_S2000x512_S512x128_S2000x128_1_0_0_1_n_n.rhsIdx (ix2 p q) ((ValueIdx.contrEquiv1 dot_S2000x512_S512x128_S2000x128_1_0_0_1_n_n 512 rfl rfl).symm k) = ix2 k q := funext fun a => Fin.ext (by
    match a with
    | ⟨0, _⟩ => exact (mm128_apply_r0 _ _).trans hk
    | ⟨1, _⟩ => exact mm128_apply_r1 _ _)
  rw [el, er]

/-! ## Columns kept after a row reduction -/

/-- A vector [a] recast as a column [a, 1] reads, at (p, 0), the vector's entry p. -/
theorem shapeCast_a_a1_apply {α : Type} {a : ℕ} (v : (⟨1, ![a]⟩ : Shape).Idx → α) (h : (⟨1, ![a]⟩ : Shape).ShapeCasts ⟨2, ![a, 1]⟩)
    (p : Fin a) : shapeCast ⟨2, ![a, 1]⟩ v h (ix2 p (0 : Fin 1)) = v (ix1 p) := by
  refine shapeCast_apply v h (ix2 p (0 : Fin 1)) (ix1 p) ?_
  rw [Shape.rowMajor_val_two, Shape.rowMajor_val_one]
  show p.val = p.val * 1 + 0
  omega

/-- The row maximum of a block of 128 columns, read at row p: the fold of max from minus infinity over the row. -/
theorem rowMax_apply (L : FVec Ideal S2000x128 .f32) (h : S2000x128.Reduces [1] S2000) (hφ : FKind.Formats .f32)
    (hacc : (0xFF800000#32 : BitVec 32) = FKind.maximumf.neutral .f32 hφ) (p : Fin 2000) :
    multiReduction .maximumf [1] S2000 L 0xFF800000#32 h hφ hacc (ix1 p) = rowMax (a := 2000) L p := by
  refine (Ideal.multiReduction_maximumf_single L 0xFF800000#32 h hφ hacc (ix1 p)).trans ?_
  unfold rowMax
  refine congrArg (fun f => (Finset.univ : Finset (Fin 128)).fold max negInfF f) ?_
  funext k
  refine congrArg L (funext fun b => Fin.ext ?_)
  match b with
  | ⟨0, _⟩ => rfl
  | ⟨1, _⟩ => rfl

/-- The row sum of a block of 128 columns, read at row p. -/
theorem rowSum_apply (E : FVec Ideal S2000x128 .f32) (h : S2000x128.Reduces [1] S2000) (hφ : FKind.Formats .f32)
    (hacc : (0x00000000#32 : BitVec 32) = FKind.add.neutral .f32 hφ) (p : Fin 2000) :
    multiReduction .add [1] S2000 E 0x00000000#32 h hφ hacc (ix1 p) = ∑ k : Fin 128, E (ix2 p k) := by
  refine (Ideal.multiReduction_add_single E 0x00000000#32 h hφ hacc (ix1 p)).trans ?_
  refine Finset.sum_congr rfl fun k _ => congrArg E (funext fun b => Fin.ext ?_)
  match b with
  | ⟨0, _⟩ => rfl
  | ⟨1, _⟩ => rfl

/-! ## The pieces the bodies share -/

/-- The aggregation's epilogue as the bodies compute it. -/
theorem epilogue_eq (d : Vec Ideal S2000x1 .f32) (A : Vec Ideal S2000x512 .f32) (b : Vec Ideal S1x512 .f32) :
    maximumf (addf (mulf (broadcastTo S2000x512 (shapeCast S2000x1 d shapeCasts_S2000x1_S2000x1) broadcasts_S2000x1_S2000x512)
        (shapeCast S2000x512 A shapeCasts_S2000x512_S2000x512))
      (broadcastTo S2000x512 (shapeCast S1x512 b shapeCasts_S1x512_S1x512) broadcasts_S1x512_S2000x512))
      (broadcast S2000x512 (Scalar.ofBits (F := Ideal) .f32 0x00000000#32))
    = epilogue (a := 2000) A d b := by
  funext i
  obtain ⟨p, q, rfl⟩ : ∃ (p : Fin 2000) (q : Fin 512), i = ix2 p q := ⟨i 0, i 1, eq_ix2 i⟩
  rw [shapeCast_self, shapeCast_self, shapeCast_self]
  show max (broadcastTo S2000x512 d broadcasts_S2000x1_S2000x512 (ix2 p q) * A (ix2 p q)
      + broadcastTo S2000x512 b broadcasts_S1x512_S2000x512 (ix2 p q)) _ = _
  rw [Cert.LibLayout.broadcastTo_a1_ab_apply, broadcastTo_1b_ab_apply]
  rfl

/-- A dense layer with cut-off as the third body computes it. -/
theorem dense_eq (H : FVec Ideal S2000x512 .f32) (W : Vec Ideal S512x512 .f32) (b : Vec Ideal S1x512 .f32) :
    maximumf (addf (matmul dot_S2000x512_S512x512_S2000x512_1_0_0_1_n_n none (truncf .bf16 H bitsLt_bf16_f32) (truncf .bf16 W bitsLt_bf16_f32)
        (constant (F := Ideal) S2000x512 .f32 0x00000000#32))
      (broadcastTo S2000x512 (shapeCast S1x512 b shapeCasts_S1x512_S1x512) broadcasts_S1x512_S2000x512))
      (broadcast S2000x512 (Scalar.ofBits (F := Ideal) .f32 0x00000000#32))
    = dense (a := 2000) H W b := by
  funext i
  obtain ⟨p, q, rfl⟩ : ∃ (p : Fin 2000) (q : Fin 512), i = ix2 p q := ⟨i 0, i 1, eq_ix2 i⟩
  rw [shapeCast_self]
  show max (matmul dot_S2000x512_S512x512_S2000x512_1_0_0_1_n_n none (truncf .bf16 H bitsLt_bf16_f32) (truncf .bf16 W bitsLt_bf16_f32)
      (constant (F := Ideal) S2000x512 .f32 0x00000000#32) (ix2 p q) + broadcastTo S2000x512 b broadcasts_S1x512_S2000x512 (ix2 p q)) _ = _
  rw [mm512_apply, broadcastTo_1b_ab_apply]
  rfl

/-- The logits as the third body computes them. -/
theorem affine_eq (H : FVec Ideal S2000x512 .f32) (W : Vec Ideal S512x128 .f32) (b : Vec Ideal S1x128 .f32) :
    addf (matmul dot_S2000x512_S512x128_S2000x128_1_0_0_1_n_n none (truncf .bf16 H bitsLt_bf16_f32) (truncf .bf16 W bitsLt_bf16_f32)
        (constant (F := Ideal) S2000x128 .f32 0x00000000#32))
      (broadcastTo S2000x128 (shapeCast S1x128 b shapeCasts_S1x128_S1x128) broadcasts_S1x128_S2000x128)
    = affine (a := 2000) H W b := by
  funext i
  obtain ⟨p, q, rfl⟩ : ∃ (p : Fin 2000) (q : Fin 128), i = ix2 p q := ⟨i 0, i 1, eq_ix2 i⟩
  rw [shapeCast_self]
  show matmul dot_S2000x512_S512x128_S2000x128_1_0_0_1_n_n none (truncf .bf16 H bitsLt_bf16_f32) (truncf .bf16 W bitsLt_bf16_f32)
      (constant (F := Ideal) S2000x128 .f32 0x00000000#32) (ix2 p q) + broadcastTo S2000x128 b broadcasts_S1x128_S2000x128 (ix2 p q) = _
  rw [mm128_apply, broadcastTo_1b_ab_apply]
  rfl

/-- The row softmax as the third body computes it: the row maximum and the row sum kept as columns and spread back. -/
theorem softmax_eq (L : FVec Ideal S2000x128 .f32) (hφ : FKind.Formats .f32)
    (hm : (0xFF800000#32 : BitVec 32) = FKind.maximumf.neutral .f32 hφ) (hs : (0x00000000#32 : BitVec 32) = FKind.add.neutral .f32 hφ) :
    divf (exp (subf L (broadcastTo S2000x128 (shapeCast S2000x1
          (multiReduction .maximumf [1] S2000 L 0xFF800000#32 reduces_S2000x128_S2000 hφ hm) shapeCasts_S2000_S2000x1)
          broadcasts_S2000x1_S2000x128)))
      (broadcastTo S2000x128 (shapeCast S2000x1
          (multiReduction .add [1] S2000 (exp (subf L (broadcastTo S2000x128 (shapeCast S2000x1
            (multiReduction .maximumf [1] S2000 L 0xFF800000#32 reduces_S2000x128_S2000 hφ hm) shapeCasts_S2000_S2000x1)
            broadcasts_S2000x1_S2000x128))) 0x00000000#32 reduces_S2000x128_S2000 hφ hs) shapeCasts_S2000_S2000x1)
        broadcasts_S2000x1_S2000x128)
    = softmaxRows (a := 2000) L := by
  have hcol : ∀ (v : FVec Ideal S2000 .f32) (p : Fin 2000) (q : Fin 128),
      broadcastTo S2000x128 (shapeCast S2000x1 v shapeCasts_S2000_S2000x1) broadcasts_S2000x1_S2000x128 (ix2 p q) = v (ix1 p) :=
    fun v p q => (Cert.LibLayout.broadcastTo_a1_ab_apply _ _ p q).trans (shapeCast_a_a1_apply v _ p)
  have hexp : ∀ (p : Fin 2000) (q : Fin 128),
      exp (subf L (broadcastTo S2000x128 (shapeCast S2000x1
          (multiReduction .maximumf [1] S2000 L 0xFF800000#32 reduces_S2000x128_S2000 hφ hm) shapeCasts_S2000_S2000x1)
          broadcasts_S2000x1_S2000x128)) (ix2 p q) = Ideal.exp (L (ix2 p q) - rowMax (a := 2000) L p) := by
    intro p q
    show Ideal.exp (L (ix2 p q) - _) = _
    rw [hcol, rowMax_apply]
  funext i
  obtain ⟨p, q, rfl⟩ : ∃ (p : Fin 2000) (q : Fin 128), i = ix2 p q := ⟨i 0, i 1, eq_ix2 i⟩
  show Ideal.div (exp (subf L _) (ix2 p q)) (broadcastTo S2000x128 _ broadcasts_S2000x1_S2000x128 (ix2 p q)) = _
  rw [hexp, hcol, rowSum_apply]
  unfold softmaxRows
  refine congrArg (Ideal.div _) (Finset.sum_congr rfl fun k _ => hexp p k)

/-! ## The three bodies -/

/-- The first body: the scaled product of its blocks. -/
theorem pay0_eq (x0 : Vec Ideal S2000x512 .f32) (x1 : Vec Ideal S512x512 .f32) (x2 : Vec Ideal S2000x1 .f32) :
    k0_pay1 (F := Ideal) x0 x1 x2 = scaledProd (a := 2000) x0 x1 x2 := by
  funext i
  obtain ⟨p, q, rfl⟩ : ∃ (p : Fin 2000) (q : Fin 512), i = ix2 p q := ⟨i 0, i 1, eq_ix2 i⟩
  show matmul dot_S2000x512_S512x512_S2000x512_1_0_0_1_n_n none (truncf .bf16 x0 bitsLt_bf16_f32) (truncf .bf16 x1 bitsLt_bf16_f32)
      (constant (F := Ideal) S2000x512 .f32 0x00000000#32) (ix2 p q)
    * broadcastTo S2000x512 (shapeCast S2000x1 x2 shapeCasts_S2000x1_S2000x1) broadcasts_S2000x1_S2000x512 (ix2 p q) = _
  rw [mm512_apply, shapeCast_self, Cert.LibLayout.broadcastTo_a1_ab_apply]
  rfl

/-- The second body: the scaled product of the aggregation's epilogue. (It loads the factor block twice: both loads are
    the same block.) -/
theorem pay1_eq (d : Vec Ideal S2000x1 .f32) (A : Vec Ideal S2000x512 .f32) (b : Vec Ideal S1x512 .f32)
    (W : Vec Ideal S512x512 .f32) (d' : Vec Ideal S2000x1 .f32) :
    k1_pay1 (F := Ideal) d A b W d' = scaledProd (a := 2000) (epilogue (a := 2000) A d b) W d' := by
  funext i
  obtain ⟨p, q, rfl⟩ : ∃ (p : Fin 2000) (q : Fin 512), i = ix2 p q := ⟨i 0, i 1, eq_ix2 i⟩
  have hE := epilogue_eq d A b
  show matmul dot_S2000x512_S512x512_S2000x512_1_0_0_1_n_n none (truncf .bf16 (maximumf (addf (mulf (broadcastTo S2000x512 (shapeCast S2000x1 d shapeCasts_S2000x1_S2000x1) broadcasts_S2000x1_S2000x512)
        (shapeCast S2000x512 A shapeCasts_S2000x512_S2000x512))
      (broadcastTo S2000x512 (shapeCast S1x512 b shapeCasts_S1x512_S1x512) broadcasts_S1x512_S2000x512))
      (broadcast S2000x512 (Scalar.ofBits (F := Ideal) .f32 0x00000000#32))) bitsLt_bf16_f32) (truncf .bf16 W bitsLt_bf16_f32)
      (constant (F := Ideal) S2000x512 .f32 0x00000000#32) (ix2 p q)
    * broadcastTo S2000x512 (shapeCast S2000x1 d' shapeCasts_S2000x1_S2000x1) broadcasts_S2000x1_S2000x512 (ix2 p q) = _
  rw [hE, mm512_apply, shapeCast_self, Cert.LibLayout.broadcastTo_a1_ab_apply]
  rfl

/-- The third body: the head on its blocks. -/
theorem pay2_eq (d : Vec Ideal S2000x1 .f32) (A : Vec Ideal S2000x512 .f32) (b : Vec Ideal S1x512 .f32)
    (W1 : Vec Ideal S512x512 .f32) (b1 : Vec Ideal S1x512 .f32) (W2 : Vec Ideal S512x128 .f32) (b2 : Vec Ideal S1x128 .f32) :
    k2_pay1 (F := Ideal) d A b W1 b1 W2 b2 = headLayer (a := 2000) A d b W1 b1 W2 b2 := by
  unfold headLayer
  rw [← affine_eq, ← dense_eq, ← epilogue_eq, ← softmax_eq _ (.inl rfl) rfl rfl]
  rfl

end Cert.KernelIdeal.KPay

end
-- ==== Proof.KVal.lean ====
/-
  From blocks to tables: what each of the three regions leaves in its output table, as ONE function of the arrays the region
  finds on entry (`V`, a parameter), index by index.
  Each region tiles its tables by rows: point `t` of ten stages rows 2000·t … 2000·t + 1999 of every row-tiled table
  (the aggregated features, the column of node factors) and the whole of every small array (weights, biases), runs the body on
  them, and writes the result back to the same rows of the output table. The body's result is the layer on a 2000-row table
  (KPay.lean); a layer reads its tables row by row, so on a range of rows it is the restriction of the layer on the whole
  table (Spec.lean, the `_rows` lemmas); and the ten row tiles cover the output table. So the table ends holding the layer of
  the entry arrays.
-/
import proofs.«151695_j15977278341604_2_alg».proof.Proof.Gen.KernelIdeal.Frame
import proofs.«151695_j15977278341604_2_alg».proof.Proof.KPay

set_option maxRecDepth 16384

noncomputable section

namespace Cert.KernelIdeal.KVal

open Cert.KernelIdeal Cert.KernelIdeal.Gen Cert.Gcn Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- A whole-block access starts at the origin. -/
theorem hz : (![0, 0] : Fin 2 → Nat) = fun _ => 0 := funext fun a => by fin_cases a <;> rfl

/-! ## Region 0: the scaled product of the feature table and the first weight matrix -/

/-- The printed index maps, decided over the grid: a row-tiled window's block index is the point's on the row axis and zero on
    the other; an untiled window's block index is zero; the output's block index runs over the ten row tiles. -/
theorem idx_facts0 : ∀ t : Fin cfg0.N, win0_0.index t (0 : Fin 2) = win0_3.index t (0 : Fin 2)
    ∧ win0_0.index t (1 : Fin 2) = 0
    ∧ win0_1.index t (0 : Fin 2) = 0
    ∧ win0_1.index t (1 : Fin 2) = 0
    ∧ win0_2.index t (0 : Fin 2) = win0_3.index t (0 : Fin 2)
    ∧ win0_2.index t (1 : Fin 2) = 0
    ∧ win0_3.index t (1 : Fin 2) = 0
    ∧ win0_3.index t (0 : Fin 2) ≤ 9 :=
  (by decide +kernel : ∀ t : Fin grid0.N, _)

/-- Every row tile is some point's. -/
theorem idx_onto0 : ∀ q0 : Fin 10, ∃ t : Fin cfg0.N, win0_3.index t = ![q0.val, 0] :=
  (by decide +kernel : ∀ q0 : Fin 10, ∃ t : Fin grid0.N, win0_3.index t = ![q0.val, 0])

/-- The table row that row `p` of point `t`'s block is. -/
def rows0 (t : Fin cfg0.N) (p : Fin 2000) : Fin 20000 :=
  ⟨win0_3.index t (0 : Fin 2) * 2000 + p.val, by have := (idx_facts0 t).2.2.2.2.2.2.2; have := p.isLt; omega⟩

/-- Input window 0's block at point `t`: the point's 2000 rows of its table. -/
theorem iblk0_0 (c : Dev nD) (t : Fin cfg0.N) :
    (iblk0 V c 0 t : S2000x512.Idx → Ideal .f32) = rowsOf (rows0 t) (V c main_arg0 : S20000x512.Idx → Ideal .f32) := by
  obtain ⟨e0, e1, e2, e3, e4, e5, e6, e7⟩ := idx_facts0 t
  funext y
  show V c main_arg0 (((cfg0.win 0).blk t).view.emb y) = V c main_arg0 (ix2 (rows0 t (rowOf y)) (colOf y))
  refine congrArg (V c main_arg0) (funext fun a => Fin.ext ?_)
  match a with
  | ⟨0, _⟩ => show win0_0.index t (0 : Fin 2) * 2000 + 1 * (y 0).val = win0_3.index t (0 : Fin 2) * 2000 + (y 0).val; omega
  | ⟨1, _⟩ => show win0_0.index t (1 : Fin 2) * 512 + 1 * (y 1).val = (y 1).val; omega

/-- Input window 1's block at point `t`: the whole array. -/
theorem iblk0_1 (c : Dev nD) (t : Fin cfg0.N) :
    (iblk0 V c 1 t : S512x512.Idx → Ideal .f32) = (V c main_arg2 : S512x512.Idx → Ideal .f32) := by
  obtain ⟨e0, e1, e2, e3, e4, e5, e6, e7⟩ := idx_facts0 t
  funext y
  show V c main_arg2 (((cfg0.win 1).blk t).view.emb y) = V c main_arg2 y
  refine congrArg (V c main_arg2) (funext fun a => Fin.ext ?_)
  match a with
  | ⟨0, _⟩ => show win0_1.index t (0 : Fin 2) * 512 + 1 * (y 0).val = (y 0).val; omega
  | ⟨1, _⟩ => show win0_1.index t (1 : Fin 2) * 512 + 1 * (y 1).val = (y 1).val; omega

/-- Input window 2's block at point `t`: the point's 2000 rows of its table. -/
theorem iblk0_2 (c : Dev nD) (t : Fin cfg0.N) :
    (iblk0 V c 2 t : S2000x1.Idx → Ideal .f32) = rowsOf (rows0 t) (V c main_v15 : S20000x1.Idx → Ideal .f32) := by
  obtain ⟨e0, e1, e2, e3, e4, e5, e6, e7⟩ := idx_facts0 t
  funext y
  show V c main_v15 (((cfg0.win 2).blk t).view.emb y) = V c main_v15 (ix2 (rows0 t (rowOf y)) (colOf y))
  refine congrArg (V c main_v15) (funext fun a => Fin.ext ?_)
  match a with
  | ⟨0, _⟩ => show win0_2.index t (0 : Fin 2) * 2000 + 1 * (y 0).val = win0_3.index t (0 : Fin 2) * 2000 + (y 0).val; omega
  | ⟨1, _⟩ => show win0_2.index t (1 : Fin 2) * 1 + 1 * (y 1).val = (y 1).val; omega

/-- What region 0's output table ends holding: the scaled product of the feature table and the first weight matrix, of the arrays as the region finds them. -/
abbrev G0 (c : Dev nD) : S20000x512.Idx → Ideal .f32 :=
  scaledProd (a := 20000) (V c main_arg0) (V c main_arg2) (V c main_v15)

/-- What point `t` writes back is block `t` of that table. -/
theorem flushed0 (c : Dev nD) (t : Fin cfg0.N) :
    (dat0 V c).flushed 3 t = ((cfg0.win 3).blk t).view.read (Elt Ideal) (G0 V c) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x512) hz, View.ld_unit_zero (S := S2000x1) hz]
  rw [KPay.pay0_eq, iblk0_0, iblk0_1, iblk0_2]
  obtain ⟨e0, e1, e2, e3, e4, e5, e6, e7⟩ := idx_facts0 t
  funext j
  show scaledProd (a := 2000) (rowsOf (rows0 t) (V c main_arg0 : S20000x512.Idx → Ideal .f32)) (V c main_arg2) (rowsOf (rows0 t) (V c main_v15 : S20000x1.Idx → Ideal .f32)) j = G0 V c (((cfg0.win 3).blk t).view.emb j)
  have hj : ((cfg0.win 3).blk t).view.emb j = ix2 (rows0 t (rowOf j)) (colOf j) := by
    funext a; apply Fin.ext
    match a with
    | ⟨0, _⟩ => show win0_3.index t (0 : Fin 2) * 2000 + 1 * (j 0).val = win0_3.index t (0 : Fin 2) * 2000 + (j 0).val; omega
    | ⟨1, _⟩ => show win0_3.index t (1 : Fin 2) * 512 + 1 * (j 1).val = (j 1).val; omega
  rw [hj, eq_ix2 j]
  exact scaledProd_rows (rows0 t) _ _ _ _ _

/-- An index of the table is in point `t`'s block iff each coordinate is in the block's range on its axis. -/
theorem mem_blk0 (t : Fin cfg0.N) (i : S20000x512.Idx) :
    i ∈ ((cfg0.win 3).blk t).view.set ↔ ∀ a : Fin 2, win0_3.index t a * S2000x512.size a ≤ (i a).val ∧ (i a).val < win0_3.index t a * S2000x512.size a + S2000x512.size a := by
  show i ∈ ((View.whole main_v16).slice (win0_3.rect t)).set ↔ _
  rw [View.set_slice_whole, Rect.mem_set_unit]
  exact Iff.rfl

/-- The ten row tiles cover the table, so it ends holding `G0`. -/
theorem final0 (c : Dev nD) : (dat0 V c).arrAt 3 cfg0.N = G0 V c :=
  (dat0 V c).arrAt_eq_of_cover 3 (G0 V c) (fun t _ => flushed0 V c t) fun i => by
    have hi0 : (i 0).val < 20000 := (i 0).isLt
    have hi1 : (i 1).val < 512 := (i 1).isLt
    obtain ⟨t, ht⟩ := idx_onto0 ⟨(i 0).val / 2000, by omega⟩
    have q0 : win0_3.index t (0 : Fin 2) = (i 0).val / 2000 := congrFun ht 0
    have q1 : win0_3.index t (1 : Fin 2) = 0 := congrFun ht 1
    refine ⟨t, flush0_3 t, ?_⟩
    rw [mem_blk0]
    intro a
    match a with
    | ⟨0, _⟩ => show win0_3.index t (0 : Fin 2) * 2000 ≤ (i 0).val ∧ (i 0).val < win0_3.index t (0 : Fin 2) * 2000 + 2000; omega
    | ⟨1, _⟩ => show win0_3.index t (1 : Fin 2) * 512 ≤ (i 1).val ∧ (i 1).val < win0_3.index t (1 : Fin 2) * 512 + 512; omega

/-! ## Region 1: the second layer's scaled product of the first aggregation's epilogue -/

/-- The printed index maps, decided over the grid: a row-tiled window's block index is the point's on the row axis and zero on
    the other; an untiled window's block index is zero; the output's block index runs over the ten row tiles. -/
theorem idx_facts1 : ∀ t : Fin cfg1.N, win1_0.index t (0 : Fin 2) = win1_4.index t (0 : Fin 2)
    ∧ win1_0.index t (1 : Fin 2) = 0
    ∧ win1_1.index t (0 : Fin 2) = win1_4.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (1 : Fin 2) = 0
    ∧ win1_4.index t (0 : Fin 2) ≤ 9 :=
  (by decide +kernel : ∀ t : Fin grid1.N, _)

/-- Every row tile is some point's. -/
theorem idx_onto1 : ∀ q0 : Fin 10, ∃ t : Fin cfg1.N, win1_4.index t = ![q0.val, 0] :=
  (by decide +kernel : ∀ q0 : Fin 10, ∃ t : Fin grid1.N, win1_4.index t = ![q0.val, 0])

/-- The table row that row `p` of point `t`'s block is. -/
def rows1 (t : Fin cfg1.N) (p : Fin 2000) : Fin 20000 :=
  ⟨win1_4.index t (0 : Fin 2) * 2000 + p.val, by have := (idx_facts1 t).2.2.2.2.2.2.2.2.2; have := p.isLt; omega⟩

/-- Input window 0's block at point `t`: the point's 2000 rows of its table. -/
theorem iblk1_0 (c : Dev nD) (t : Fin cfg1.N) :
    (iblk1 V c 0 t : S2000x512.Idx → Ideal .f32) = rowsOf (rows1 t) (V c main_v26 : S20000x512.Idx → Ideal .f32) := by
  obtain ⟨e0, e1, e2, e3, e4, e5, e6, e7, e8, e9⟩ := idx_facts1 t
  funext y
  show V c main_v26 (((cfg1.win 0).blk t).view.emb y) = V c main_v26 (ix2 (rows1 t (rowOf y)) (colOf y))
  refine congrArg (V c main_v26) (funext fun a => Fin.ext ?_)
  match a with
  | ⟨0, _⟩ => show win1_0.index t (0 : Fin 2) * 2000 + 1 * (y 0).val = win1_4.index t (0 : Fin 2) * 2000 + (y 0).val; omega
  | ⟨1, _⟩ => show win1_0.index t (1 : Fin 2) * 512 + 1 * (y 1).val = (y 1).val; omega

/-- Input window 1's block at point `t`: the point's 2000 rows of its table. -/
theorem iblk1_1 (c : Dev nD) (t : Fin cfg1.N) :
    (iblk1 V c 1 t : S2000x1.Idx → Ideal .f32) = rowsOf (rows1 t) (V c main_v15 : S20000x1.Idx → Ideal .f32) := by
  obtain ⟨e0, e1, e2, e3, e4, e5, e6, e7, e8, e9⟩ := idx_facts1 t
  funext y
  show V c main_v15 (((cfg1.win 1).blk t).view.emb y) = V c main_v15 (ix2 (rows1 t (rowOf y)) (colOf y))
  refine congrArg (V c main_v15) (funext fun a => Fin.ext ?_)
  match a with
  | ⟨0, _⟩ => show win1_1.index t (0 : Fin 2) * 2000 + 1 * (y 0).val = win1_4.index t (0 : Fin 2) * 2000 + (y 0).val; omega
  | ⟨1, _⟩ => show win1_1.index t (1 : Fin 2) * 1 + 1 * (y 1).val = (y 1).val; omega

/-- Input window 2's block at point `t`: the whole array. -/
theorem iblk1_2 (c : Dev nD) (t : Fin cfg1.N) :
    (iblk1 V c 2 t : S1x512.Idx → Ideal .f32) = (V c main_v27 : S1x512.Idx → Ideal .f32) := by
  obtain ⟨e0, e1, e2, e3, e4, e5, e6, e7, e8, e9⟩ := idx_facts1 t
  funext y
  show V c main_v27 (((cfg1.win 2).blk t).view.emb y) = V c main_v27 y
  refine congrArg (V c main_v27) (funext fun a => Fin.ext ?_)
  match a with
  | ⟨0, _⟩ => show win1_2.index t (0 : Fin 2) * 1 + 1 * (y 0).val = (y 0).val; omega
  | ⟨1, _⟩ => show win1_2.index t (1 : Fin 2) * 512 + 1 * (y 1).val = (y 1).val; omega

/-- Input window 3's block at point `t`: the whole array. -/
theorem iblk1_3 (c : Dev nD) (t : Fin cfg1.N) :
    (iblk1 V c 3 t : S512x512.Idx → Ideal .f32) = (V c main_arg4 : S512x512.Idx → Ideal .f32) := by
  obtain ⟨e0, e1, e2, e3, e4, e5, e6, e7, e8, e9⟩ := idx_facts1 t
  funext y
  show V c main_arg4 (((cfg1.win 3).blk t).view.emb y) = V c main_arg4 y
  refine congrArg (V c main_arg4) (funext fun a => Fin.ext ?_)
  match a with
  | ⟨0, _⟩ => show win1_3.index t (0 : Fin 2) * 512 + 1 * (y 0).val = (y 0).val; omega
  | ⟨1, _⟩ => show win1_3.index t (1 : Fin 2) * 512 + 1 * (y 1).val = (y 1).val; omega

/-- What region 1's output table ends holding: the second layer's scaled product of the first aggregation's epilogue, of the arrays as the region finds them. -/
abbrev G1 (c : Dev nD) : S20000x512.Idx → Ideal .f32 :=
  midLayer (a := 20000) (V c main_v26) (V c main_v15) (V c main_v27) (V c main_arg4)

/-- What point `t` writes back is block `t` of that table. -/
theorem flushed1 (c : Dev nD) (t : Fin cfg1.N) :
    (dat1 V c).flushed 4 t = ((cfg1.win 4).blk t).view.read (Elt Ideal) (G1 V c) := by
  show (cfg1.win 4).cut (grid1.coords t) ((dat1 V c).after 4 t) = _
  rw [after1_4]
  unfold out1_4
  rw [View.canon_unit_zero hz]
  simp only [View.ld_unit_zero (S := S2000x1) hz, View.ld_unit_zero (S := S2000x512) hz, View.ld_unit_zero (S := S1x512) hz, View.ld_unit_zero (S := S512x512) hz]
  rw [KPay.pay1_eq, iblk1_0, iblk1_1, iblk1_2, iblk1_3]
  obtain ⟨e0, e1, e2, e3, e4, e5, e6, e7, e8, e9⟩ := idx_facts1 t
  funext j
  show midLayer (a := 2000) (rowsOf (rows1 t) (V c main_v26 : S20000x512.Idx → Ideal .f32)) (rowsOf (rows1 t) (V c main_v15 : S20000x1.Idx → Ideal .f32)) (V c main_v27) (V c main_arg4) j = G1 V c (((cfg1.win 4).blk t).view.emb j)
  have hj : ((cfg1.win 4).blk t).view.emb j = ix2 (rows1 t (rowOf j)) (colOf j) := by
    funext a; apply Fin.ext
    match a with
    | ⟨0, _⟩ => show win1_4.index t (0 : Fin 2) * 2000 + 1 * (j 0).val = win1_4.index t (0 : Fin 2) * 2000 + (j 0).val; omega
    | ⟨1, _⟩ => show win1_4.index t (1 : Fin 2) * 512 + 1 * (j 1).val = (j 1).val; omega
  rw [hj, eq_ix2 j]
  exact midLayer_rows (rows1 t) _ _ _ _ _ _

/-- An index of the table is in point `t`'s block iff each coordinate is in the block's range on its axis. -/
theorem mem_blk1 (t : Fin cfg1.N) (i : S20000x512.Idx) :
    i ∈ ((cfg1.win 4).blk t).view.set ↔ ∀ a : Fin 2, win1_4.index t a * S2000x512.size a ≤ (i a).val ∧ (i a).val < win1_4.index t a * S2000x512.size a + S2000x512.size a := by
  show i ∈ ((View.whole main_v28).slice (win1_4.rect t)).set ↔ _
  rw [View.set_slice_whole, Rect.mem_set_unit]
  exact Iff.rfl

/-- The ten row tiles cover the table, so it ends holding `G1`. -/
theorem final1 (c : Dev nD) : (dat1 V c).arrAt 4 cfg1.N = G1 V c :=
  (dat1 V c).arrAt_eq_of_cover 4 (G1 V c) (fun t _ => flushed1 V c t) fun i => by
    have hi0 : (i 0).val < 20000 := (i 0).isLt
    have hi1 : (i 1).val < 512 := (i 1).isLt
    obtain ⟨t, ht⟩ := idx_onto1 ⟨(i 0).val / 2000, by omega⟩
    have q0 : win1_4.index t (0 : Fin 2) = (i 0).val / 2000 := congrFun ht 0
    have q1 : win1_4.index t (1 : Fin 2) = 0 := congrFun ht 1
    refine ⟨t, flush1_4 t, ?_⟩
    rw [mem_blk1]
    intro a
    match a with
    | ⟨0, _⟩ => show win1_4.index t (0 : Fin 2) * 2000 ≤ (i 0).val ∧ (i 0).val < win1_4.index t (0 : Fin 2) * 2000 + 2000; omega
    | ⟨1, _⟩ => show win1_4.index t (1 : Fin 2) * 512 ≤ (i 1).val ∧ (i 1).val < win1_4.index t (1 : Fin 2) * 512 + 512; omega

/-! ## Region 2: the head (epilogue of the second aggregation, dense layer, logits, row softmax) -/

/-- The printed index maps, decided over the grid: a row-tiled window's block index is the point's on the row axis and zero on
    the other; an untiled window's block index is zero; the output's block index runs over the ten row tiles. -/
theorem idx_facts2 : ∀ t : Fin cfg2.N, win2_0.index t (0 : Fin 2) = win2_7.index t (0 : Fin 2)
    ∧ win2_0.index t (1 : Fin 2) = 0
    ∧ win2_1.index t (0 : Fin 2) = win2_7.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (1 : Fin 2) = 0
    ∧ win2_7.index t (0 : Fin 2) ≤ 9 :=
  (by decide +kernel : ∀ t : Fin grid2.N, _)

/-- Every row tile is some point's. -/
theorem idx_onto2 : ∀ q0 : Fin 10, ∃ t : Fin cfg2.N, win2_7.index t = ![q0.val, 0] :=
  (by decide +kernel : ∀ q0 : Fin 10, ∃ t : Fin grid2.N, win2_7.index t = ![q0.val, 0])

/-- The table row that row `p` of point `t`'s block is. -/
def rows2 (t : Fin cfg2.N) (p : Fin 2000) : Fin 20000 :=
  ⟨win2_7.index t (0 : Fin 2) * 2000 + p.val, by have := (idx_facts2 t).2.2.2.2.2.2.2.2.2.2.2.2.2.2.2; have := p.isLt; omega⟩

/-- Input window 0's block at point `t`: the point's 2000 rows of its table. -/
theorem iblk2_0 (c : Dev nD) (t : Fin cfg2.N) :
    (iblk2 V c 0 t : S2000x512.Idx → Ideal .f32) = rowsOf (rows2 t) (V c main_v38 : S20000x512.Idx → Ideal .f32) := by
  obtain ⟨e0, e1, e2, e3, e4, e5, e6, e7, e8, e9, e10, e11, e12, e13, e14, e15⟩ := idx_facts2 t
  funext y
  show V c main_v38 (((cfg2.win 0).blk t).view.emb y) = V c main_v38 (ix2 (rows2 t (rowOf y)) (colOf y))
  refine congrArg (V c main_v38) (funext fun a => Fin.ext ?_)
  match a with
  | ⟨0, _⟩ => show win2_0.index t (0 : Fin 2) * 2000 + 1 * (y 0).val = win2_7.index t (0 : Fin 2) * 2000 + (y 0).val; omega
  | ⟨1, _⟩ => show win2_0.index t (1 : Fin 2) * 512 + 1 * (y 1).val = (y 1).val; omega

/-- Input window 1's block at point `t`: the point's 2000 rows of its table. -/
theorem iblk2_1 (c : Dev nD) (t : Fin cfg2.N) :
    (iblk2 V c 1 t : S2000x1.Idx → Ideal .f32) = rowsOf (rows2 t) (V c main_v15 : S20000x1.Idx → Ideal .f32) := by
  obtain ⟨e0, e1, e2, e3, e4, e5, e6, e7, e8, e9, e10, e11, e12, e13, e14, e15⟩ := idx_facts2 t
  funext y
  show V c main_v15 (((cfg2.win 1).blk t).view.emb y) = V c main_v15 (ix2 (rows2 t (rowOf y)) (colOf y))
  refine congrArg (V c main_v15) (funext fun a => Fin.ext ?_)
  match a with
  | ⟨0, _⟩ => show win2_1.index t (0 : Fin 2) * 2000 + 1 * (y 0).val = win2_7.index t (0 : Fin 2) * 2000 + (y 0).val; omega
  | ⟨1, _⟩ => show win2_1.index t (1 : Fin 2) * 1 + 1 * (y 1).val = (y 1).val; omega

/-- Input window 2's block at point `t`: the whole array. -/
theorem iblk2_2 (c : Dev nD) (t : Fin cfg2.N) :
    (iblk2 V c 2 t : S1x512.Idx → Ideal .f32) = (V c main_v39 : S1x512.Idx → Ideal .f32) := by
  obtain ⟨e0, e1, e2, e3, e4, e5, e6, e7, e8, e9, e10, e11, e12, e13, e14, e15⟩ := idx_facts2 t
  funext y
  show V c main_v39 (((cfg2.win 2).blk t).view.emb y) = V c main_v39 y
  refine congrArg (V c main_v39) (funext fun a => Fin.ext ?_)
  match a with
  | ⟨0, _⟩ => show win2_2.index t (0 : Fin 2) * 1 + 1 * (y 0).val = (y 0).val; omega
  | ⟨1, _⟩ => show win2_2.index t (1 : Fin 2) * 512 + 1 * (y 1).val = (y 1).val; omega

/-- Input window 3's block at point `t`: the whole array. -/
theorem iblk2_3 (c : Dev nD) (t : Fin cfg2.N) :
    (iblk2 V c 3 t : S512x512.Idx → Ideal .f32) = (V c main_arg6 : S512x512.Idx → Ideal .f32) := by
  obtain ⟨e0, e1, e2, e3, e4, e5, e6, e7, e8, e9, e10, e11, e12, e13, e14, e15⟩ := idx_facts2 t
  funext y
  show V c main_arg6 (((cfg2.win 3).blk t).view.emb y) = V c main_arg6 y
  refine congrArg (V c main_arg6) (funext fun a => Fin.ext ?_)
  match a with
  | ⟨0, _⟩ => show win2_3.index t (0 : Fin 2) * 512 + 1 * (y 0).val = (y 0).val; omega
  | ⟨1, _⟩ => show win2_3.index t (1 : Fin 2) * 512 + 1 * (y 1).val = (y 1).val; omega

/-- Input window 4's block at point `t`: the whole array. -/
theorem iblk2_4 (c : Dev nD) (t : Fin cfg2.N) :
    (iblk2 V c 4 t : S1x512.Idx → Ideal .f32) = (V c main_v40 : S1x512.Idx → Ideal .f32) := by
  obtain ⟨e0, e1, e2, e3, e4, e5, e6, e7, e8, e9, e10, e11, e12, e13, e14, e15⟩ := idx_facts2 t
  funext y
  show V c main_v40 (((cfg2.win 4).blk t).view.emb y) = V c main_v40 y
  refine congrArg (V c main_v40) (funext fun a => Fin.ext ?_)
  match a with
  | ⟨0, _⟩ => show win2_4.index t (0 : Fin 2) * 1 + 1 * (y 0).val = (y 0).val; omega
  | ⟨1, _⟩ => show win2_4.index t (1 : Fin 2) * 512 + 1 * (y 1).val = (y 1).val; omega

/-- Input window 5's block at point `t`: the whole array. -/
theorem iblk2_5 (c : Dev nD) (t : Fin cfg2.N) :
    (iblk2 V c 5 t : S512x128.Idx → Ideal .f32) = (V c main_arg8 : S512x128.Idx → Ideal .f32) := by
  obtain ⟨e0, e1, e2, e3, e4, e5, e6, e7, e8, e9, e10, e11, e12, e13, e14, e15⟩ := idx_facts2 t
  funext y
  show V c main_arg8 (((cfg2.win 5).blk t).view.emb y) = V c main_arg8 y
  refine congrArg (V c main_arg8) (funext fun a => Fin.ext ?_)
  match a with
  | ⟨0, _⟩ => show win2_5.index t (0 : Fin 2) * 512 + 1 * (y 0).val = (y 0).val; omega
  | ⟨1, _⟩ => show win2_5.index t (1 : Fin 2) * 128 + 1 * (y 1).val = (y 1).val; omega

/-- Input window 6's block at point `t`: the whole array. -/
theorem iblk2_6 (c : Dev nD) (t : Fin cfg2.N) :
    (iblk2 V c 6 t : S1x128.Idx → Ideal .f32) = (V c main_v41 : S1x128.Idx → Ideal .f32) := by
  obtain ⟨e0, e1, e2, e3, e4, e5, e6, e7, e8, e9, e10, e11, e12, e13, e14, e15⟩ := idx_facts2 t
  funext y
  show V c main_v41 (((cfg2.win 6).blk t).view.emb y) = V c main_v41 y
  refine congrArg (V c main_v41) (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- What region 2's output table ends holding: the head (epilogue of the second aggregation, dense layer, logits, row softmax), of the arrays as the region finds them. -/
abbrev G2 (c : Dev nD) : S20000x128.Idx → Ideal .f32 :=
  headLayer (a := 20000) (V c main_v38) (V c main_v15) (V c main_v39) (V c main_arg6) (V c main_v40) (V c main_arg8) (V c main_v41)

/-- What point `t` writes back is block `t` of that table. -/
theorem flushed2 (c : Dev nD) (t : Fin cfg2.N) :
    (dat2 V c).flushed 7 t = ((cfg2.win 7).blk t).view.read (Elt Ideal) (G2 V c) := by
  show (cfg2.win 7).cut (grid2.coords t) ((dat2 V c).after 7 t) = _
  rw [after2_7]
  unfold out2_7
  rw [View.canon_unit_zero hz]
  simp only [View.ld_unit_zero (S := S2000x1) hz, View.ld_unit_zero (S := S2000x512) hz, View.ld_unit_zero (S := S1x512) hz, View.ld_unit_zero (S := S512x512) hz, View.ld_unit_zero (S := S512x128) hz, View.ld_unit_zero (S := S1x128) hz]
  rw [KPay.pay2_eq, iblk2_0, iblk2_1, iblk2_2, iblk2_3, iblk2_4, iblk2_5, iblk2_6]
  obtain ⟨e0, e1, e2, e3, e4, e5, e6, e7, e8, e9, e10, e11, e12, e13, e14, e15⟩ := idx_facts2 t
  funext j
  show headLayer (a := 2000) (rowsOf (rows2 t) (V c main_v38 : S20000x512.Idx → Ideal .f32)) (rowsOf (rows2 t) (V c main_v15 : S20000x1.Idx → Ideal .f32)) (V c main_v39) (V c main_arg6) (V c main_v40) (V c main_arg8) (V c main_v41) j = G2 V c (((cfg2.win 7).blk t).view.emb j)
  have hj : ((cfg2.win 7).blk t).view.emb j = ix2 (rows2 t (rowOf j)) (colOf j) := by
    funext a; apply Fin.ext
    match a with
    | ⟨0, _⟩ => show win2_7.index t (0 : Fin 2) * 2000 + 1 * (j 0).val = win2_7.index t (0 : Fin 2) * 2000 + (j 0).val; omega
    | ⟨1, _⟩ => show win2_7.index t (1 : Fin 2) * 128 + 1 * (j 1).val = (j 1).val; omega
  rw [hj, eq_ix2 j]
  exact headLayer_rows (rows2 t) _ _ _ _ _ _ _ _ _

/-- An index of the table is in point `t`'s block iff each coordinate is in the block's range on its axis. -/
theorem mem_blk2 (t : Fin cfg2.N) (i : S20000x128.Idx) :
    i ∈ ((cfg2.win 7).blk t).view.set ↔ ∀ a : Fin 2, win2_7.index t a * S2000x128.size a ≤ (i a).val ∧ (i a).val < win2_7.index t a * S2000x128.size a + S2000x128.size a := by
  show i ∈ ((View.whole main_v42).slice (win2_7.rect t)).set ↔ _
  rw [View.set_slice_whole, Rect.mem_set_unit]
  exact Iff.rfl

/-- The ten row tiles cover the table, so it ends holding `G2`. -/
theorem final2 (c : Dev nD) : (dat2 V c).arrAt 7 cfg2.N = G2 V c :=
  (dat2 V c).arrAt_eq_of_cover 7 (G2 V c) (fun t _ => flushed2 V c t) fun i => by
    have hi0 : (i 0).val < 20000 := (i 0).isLt
    have hi1 : (i 1).val < 128 := (i 1).isLt
    obtain ⟨t, ht⟩ := idx_onto2 ⟨(i 0).val / 2000, by omega⟩
    have q0 : win2_7.index t (0 : Fin 2) = (i 0).val / 2000 := congrFun ht 0
    have q1 : win2_7.index t (1 : Fin 2) = 0 := congrFun ht 1
    refine ⟨t, flush2_7 t, ?_⟩
    rw [mem_blk2]
    intro a
    match a with
    | ⟨0, _⟩ => show win2_7.index t (0 : Fin 2) * 2000 ≤ (i 0).val ∧ (i 0).val < win2_7.index t (0 : Fin 2) * 2000 + 2000; omega
    | ⟨1, _⟩ => show win2_7.index t (1 : Fin 2) * 128 ≤ (i 1).val ∧ (i 1).val < win2_7.index t (1 : Fin 2) * 128 + 128; omega

end Cert.KernelIdeal.KVal

end
-- ==== Proof.Net.lean ====
/-
  The network as ONE function of the program's arguments, over the extended reals.
  The edge list is two rows of node words, senders and receivers; one self-loop per node is appended to each
  (`src`, `dst`). A sender word is read as a signed integer, a negative one shifted by the node count (`nrm`), and the
  gather that follows clamps it into the table. A node's degree is the number of edges that name it as receiver
  (`deg`: a scatter of ones, an out-of-range word naming no node); its factor is 1/√deg where the degree is positive and 0
  elsewhere (`dinv`, kept as a column `dcol`). An AGGREGATION (`agg`) gathers one row of a table per edge, the sender's,
  and adds it into the receiver's row of a zero table.
  The network: H₁ = (x · W₁) scaled by the factors; A₁ = agg H₁; H₂ = the scaled product of A₁'s epilogue with W₂;
  A₂ = agg H₂; the head on A₂ (epilogue, dense layer, logits, row softmax). The layers are Spec.lean's.
-/
import proofs.«151695_j15977278341604_2_alg».proof.Proof.Gen.KernelIdeal
import proofs.«151695_j15977278341604_2_alg».proof.Proof.Spec

noncomputable section

namespace Cert.Net

open Cert.KernelIdeal Cert.KernelIdeal.Gen Cert.Gcn Idealize.ShloMosaic

/-- The senders' words: the edge list's first row, then one word per node (the self-loops). -/
def src (e : IVec S2x320000 32) : IVec S340000 32 :=
  concatenate S340000 0 [⟨S320000, shapeCast S320000 (extractStridedSlice S1x320000 ![0, 0] e slices_S2x320000_S1x320000_0_0) shapeCasts_S1x320000_S320000⟩, ⟨S20000, iotaInDim S20000 32 0⟩] concatenates_S320000_S20000_S340000_d0

/-- The receivers' words: the edge list's second row, then the self-loops. -/
def dst (e : IVec S2x320000 32) : IVec S340000 32 :=
  concatenate S340000 0 [⟨S320000, shapeCast S320000 (extractStridedSlice S1x320000 ![1, 0] e slices_S2x320000_S1x320000_1_0) shapeCasts_S1x320000_S320000⟩, ⟨S20000, iotaInDim S20000 32 0⟩] concatenates_S320000_S20000_S340000_d0

/-- A word array with every negative word shifted by the node count. -/
def nrm (v : IVec S340000 32) : IVec S340000 32 :=
  select (cmpi .slt v (broadcastInDim S340000 ![] bcast_S_S340000 (constantI S_ 32 0#32)))
    (addi v (broadcastInDim S340000 ![] bcast_S_S340000 (constantI S_ 32 20000#32))) v

/-- A word array as a column of one-word index vectors. -/
def col (v : IVec S340000 32) : IVec S340000x1 32 := broadcastInDim S340000x1 ![0] bcast_S340000_S340000x1_0 v

/-- The nodes' degrees. -/
def deg (e : IVec S2x320000 32) : FVec Ideal S20000 .f32 :=
  Host.scatterAdd scatter_S20000_S340000x1_S340000_n_0_0_1
    (broadcastInDim S20000 ![] bcast_S_S20000 (constant (F := Ideal) S_ .f32 0x00000000#32)) (col (dst e))
    (broadcastInDim S340000 ![] bcast_S_S340000 (constant (F := Ideal) S_ .f32 0x3F800000#32))

/-- The nodes' factors. -/
def dinv (e : IVec S2x320000 32) : FVec Ideal S20000 .f32 :=
  select (cmpf .ogt (deg e) (broadcastInDim S20000 ![] bcast_S_S20000 (constant (F := Ideal) S_ .f32 0x00000000#32)))
    (Host.rsqrt (deg e))
    (broadcastInDim S20000 ![] bcast_S_S20000 (id (constant (F := Ideal) S_ .f32 0x00000000#32)))

/-- The factors as a column. -/
def dcol (e : IVec S2x320000 32) : FVec Ideal S20000x1 .f32 := shapeCast S20000x1 (dinv e) shapeCasts_S20000_S20000x1

/-- The aggregation of a table over given receiver and sender words. -/
def aggOf (D S : IVec S340000 32) (Z : FVec Ideal S20000x512 .f32) : FVec Ideal S20000x512 .f32 :=
  Host.scatterAdd scatter_S20000x512_S340000x1_S340000x512_1_0_0_1
    (broadcastInDim S20000x512 ![] bcast_S_S20000x512 (constant (F := Ideal) S_ .f32 0x00000000#32)) (col D)
    (Host.gather gather_S20000x512_S340000x1_S340000x512_1_0_n_n_0_1_1512 Z (col (nrm S)))

/-- The aggregation of a table over the edge list. -/
def agg (e : IVec S2x320000 32) (Z : FVec Ideal S20000x512 .f32) : FVec Ideal S20000x512 .f32 := aggOf (dst e) (src e) Z

/-- A bias vector as a one-row table. -/
def rowB (b : FVec Ideal S512 .f32) : FVec Ideal S1x512 .f32 := shapeCast S1x512 b shapeCasts_S512_S1x512
def rowB128 (b : FVec Ideal S128 .f32) : FVec Ideal S1x128 .f32 := shapeCast S1x128 b shapeCasts_S128_S1x128

/-- The first layer's scaled product. -/
def h1 (x : FVec Ideal S20000x512 .f32) (e : IVec S2x320000 32) (W1 : FVec Ideal S512x512 .f32) : FVec Ideal S20000x512 .f32 :=
  scaledProd (a := 20000) x W1 (dcol e)

/-- The second layer's scaled product. -/
def h2 (x : FVec Ideal S20000x512 .f32) (e : IVec S2x320000 32) (W1 : FVec Ideal S512x512 .f32) (b1 : FVec Ideal S512 .f32)
    (W2 : FVec Ideal S512x512 .f32) : FVec Ideal S20000x512 .f32 :=
  midLayer (a := 20000) (agg e (h1 x e W1)) (dcol e) (rowB b1) W2

/-- The network. -/
def net (x : FVec Ideal S20000x512 .f32) (e : IVec S2x320000 32) (W1 : FVec Ideal S512x512 .f32) (b1 : FVec Ideal S512 .f32)
    (W2 : FVec Ideal S512x512 .f32) (b2 : FVec Ideal S512 .f32) (Wf1 : FVec Ideal S512x512 .f32) (bf1 : FVec Ideal S512 .f32)
    (Wf2 : FVec Ideal S512x128 .f32) (bf2 : FVec Ideal S128 .f32) : FVec Ideal S20000x128 .f32 :=
  headLayer (a := 20000) (agg e (h2 x e W1 b1 W2)) (dcol e) (rowB b2) Wf1 (rowB bf1) Wf2 (rowB128 bf2)

end Cert.Net

end
-- ==== Proof.KChain.lean ====
/-
  The result table through the program's eight segments.
  The program is: a stretch of host operations (the edge words with the self-loops appended, the degrees, the factors and
  their column), the first region (the scaled product x · W₁), a stretch (gather the senders' rows, add them into the
  receivers' rows: the first aggregation; the first bias as a row), the second region, a stretch (the second aggregation;
  the other biases as rows), the third region (the head). The contents of the buffers at each boundary are a fold of
  the segments from the launch memory: a host operation's result is its function of its operands' contents, a buffer no
  operation of a stretch writes keeps its contents, a region leaves in its output table the layer of its entry arrays
  (KVal.lean) and every other buffer as it found it. Followed from the launch to the return, the result table holds the
  network of the arguments (Net.lean).
-/
import proofs.«151695_j15977278341604_2_alg».proof.Proof.Gen.KernelIdeal.Frame
import proofs.«151695_j15977278341604_2_alg».proof.Proof.KVal
import proofs.«151695_j15977278341604_2_alg».proof.Proof.Net
import Idealize.ShloMosaic.Lib.StableHlo.Run

set_option maxRecDepth 16384

noncomputable section

namespace Cert.KernelIdeal.KChain

open Cert.KernelIdeal Cert.KernelIdeal.Gen Cert.Gcn Idealize.ShloMosaic Idealize.ShloMosaic.TcCoe Idealize.ShloMosaic.StableHlo
open Idealize.SL.Sem
open Idealize.ShloMosaic.Pipeline (Dat Cfg Window)

variable (m : (ℓ : Loc nD τ sig) → Buf (Elt Ideal) ℓ) (ρ : Dev nD → PrngReg)

/-! ## Before the first region: the edge words, the factors' column, the arguments as launched -/

set_option maxHeartbeats 4000000 in
theorem W3_arg0 (c : Dev nD) : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  after_results
  all_goals rfl
set_option maxHeartbeats 4000000 in
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results
  all_goals rfl
set_option maxHeartbeats 4000000 in
theorem W3_arg3 (c : Dev nD) : W3 m ρ c (Proc.devRef .tc main_arg3) = (m ((c : Thread nD τ).loc main_arg3)) := by
  show StableHlo.after hostOps0_2 (StableHlo.after hostOps0_1 (StableHlo.after hostOps0 (W0 m ρ c))) (Proc.devRef .tc main_arg3) = _
  after_results
  all_goals rfl
set_option maxHeartbeats 4000000 in
theorem W3_arg4 (c : Dev nD) : W3 m ρ c (Proc.devRef .tc main_arg4) = (m ((c : Thread nD τ).loc main_arg4)) := by
  show StableHlo.after hostOps0_2 (StableHlo.after hostOps0_1 (StableHlo.after hostOps0 (W0 m ρ c))) (Proc.devRef .tc main_arg4) = _
  after_results
  all_goals rfl
set_option maxHeartbeats 4000000 in
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results
  all_goals rfl
set_option maxHeartbeats 4000000 in
theorem W3_arg6 (c : Dev nD) : W3 m ρ c (Proc.devRef .tc main_arg6) = (m ((c : Thread nD τ).loc main_arg6)) := by
  show StableHlo.after hostOps0_2 (StableHlo.after hostOps0_1 (StableHlo.after hostOps0 (W0 m ρ c))) (Proc.devRef .tc main_arg6) = _
  after_results
  all_goals rfl
set_option maxHeartbeats 4000000 in
theorem W3_arg7 (c : Dev nD) : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  after_results
  all_goals rfl
set_option maxHeartbeats 4000000 in
theorem W3_arg8 (c : Dev nD) : W3 m ρ c (Proc.devRef .tc main_arg8) = (m ((c : Thread nD τ).loc main_arg8)) := by
  show StableHlo.after hostOps0_2 (StableHlo.after hostOps0_1 (StableHlo.after hostOps0 (W0 m ρ c))) (Proc.devRef .tc main_arg8) = _
  after_results
  all_goals rfl
set_option maxHeartbeats 4000000 in
theorem W3_arg9 (c : Dev nD) : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  after_results
  all_goals rfl
set_option maxHeartbeats 4000000 in
theorem W3_v3 (c : Dev nD) : W3 m ρ c (Proc.devRef .tc main_v3) = (Net.src (m ((c : Thread nD τ).loc main_arg1))) := by
  show StableHlo.after hostOps0_2 (StableHlo.after hostOps0_1 (StableHlo.after hostOps0 (W0 m ρ c))) (Proc.devRef .tc main_v3) = _
  after_results
  all_goals rfl
set_option maxHeartbeats 4000000 in
theorem W3_v6 (c : Dev nD) : W3 m ρ c (Proc.devRef .tc main_v6) = (Net.dst (m ((c : Thread nD τ).loc main_arg1))) := by
  show StableHlo.after hostOps0_2 (StableHlo.after hostOps0_1 (StableHlo.after hostOps0 (W0 m ρ c))) (Proc.devRef .tc main_v6) = _
  after_results
  all_goals rfl
set_option maxHeartbeats 4000000 in
set_option maxRecDepth 1000000 in
theorem W3_v15 (c : Dev nD) : W3 m ρ c (Proc.devRef .tc main_v15) = (Net.dcol (m ((c : Thread nD τ).loc main_arg1))) := by
  show StableHlo.after hostOps0_2 (StableHlo.after hostOps0_1 (StableHlo.after hostOps0 (W0 m ρ c))) (Proc.devRef .tc main_v15) = _
  after_results
  unfold Net.dcol Net.dinv Net.deg Net.col Net.dst
  rfl

/-! ## After the first region -/

set_option maxHeartbeats 4000000 in
theorem W4_v16 (c : Dev nD) : W4 m ρ c (Proc.devRef .tc main_v16) = (Net.h1 (m ((c : Thread nD τ).loc main_arg0)) (m ((c : Thread nD τ).loc main_arg1)) (m ((c : Thread nD τ).loc main_arg2))) := by
  refine (W4_arr m ρ c 3).trans ((KVal.final0 (V3 m ρ) c).trans ?_)
  show scaledProd (a := 20000) (W3 m ρ c (Proc.devRef .tc main_arg0)) (W3 m ρ c (Proc.devRef .tc main_arg2)) (W3 m ρ c (Proc.devRef .tc main_v15)) = _
  rw [W3_arg0, W3_arg2, W3_v15]
  rfl
set_option maxHeartbeats 4000000 in
theorem W4_v15 (c : Dev nD) : W4 m ρ c (Proc.devRef .tc main_v15) = (Net.dcol (m ((c : Thread nD τ).loc main_arg1))) :=
  ((W4_arr m ρ c 2).trans (((dat0 (V3 m ρ) c).arrAt_in 2 rfl _).trans (A_eq0 (V3 m ρ) c 2))).trans (W3_v15 m ρ c)
set_option maxHeartbeats 4000000 in
theorem W4_arg3 (c : Dev nD) : W4 m ρ c (Proc.devRef .tc main_arg3) = (m ((c : Thread nD τ).loc main_arg3)) :=
  (W4_of_ne m ρ c main_arg3 (by decide)).trans (W3_arg3 m ρ c)
set_option maxHeartbeats 4000000 in
theorem W4_arg4 (c : Dev nD) : W4 m ρ c (Proc.devRef .tc main_arg4) = (m ((c : Thread nD τ).loc main_arg4)) :=
  (W4_of_ne m ρ c main_arg4 (by decide)).trans (W3_arg4 m ρ c)
set_option maxHeartbeats 4000000 in
theorem W4_arg5 (c : Dev nD) : W4 m ρ c (Proc.devRef .tc main_arg5) = (m ((c : Thread nD τ).loc main_arg5)) :=
  (W4_of_ne m ρ c main_arg5 (by decide)).trans (W3_arg5 m ρ c)
set_option maxHeartbeats 4000000 in
theorem W4_arg6 (c : Dev nD) : W4 m ρ c (Proc.devRef .tc main_arg6) = (m ((c : Thread nD τ).loc main_arg6)) :=
  (W4_of_ne m ρ c main_arg6 (by decide)).trans (W3_arg6 m ρ c)
set_option maxHeartbeats 4000000 in
theorem W4_arg7 (c : Dev nD) : W4 m ρ c (Proc.devRef .tc main_arg7) = (m ((c : Thread nD τ).loc main_arg7)) :=
  (W4_of_ne m ρ c main_arg7 (by decide)).trans (W3_arg7 m ρ c)
set_option maxHeartbeats 4000000 in
theorem W4_arg8 (c : Dev nD) : W4 m ρ c (Proc.devRef .tc main_arg8) = (m ((c : Thread nD τ).loc main_arg8)) :=
  (W4_of_ne m ρ c main_arg8 (by decide)).trans (W3_arg8 m ρ c)
set_option maxHeartbeats 4000000 in
theorem W4_arg9 (c : Dev nD) : W4 m ρ c (Proc.devRef .tc main_arg9) = (m ((c : Thread nD τ).loc main_arg9)) :=
  (W4_of_ne m ρ c main_arg9 (by decide)).trans (W3_arg9 m ρ c)
set_option maxHeartbeats 4000000 in
theorem W4_v3 (c : Dev nD) : W4 m ρ c (Proc.devRef .tc main_v3) = (Net.src (m ((c : Thread nD τ).loc main_arg1))) :=
  (W4_of_ne m ρ c main_v3 (by decide)).trans (W3_v3 m ρ c)
set_option maxHeartbeats 4000000 in
theorem W4_v6 (c : Dev nD) : W4 m ρ c (Proc.devRef .tc main_v6) = (Net.dst (m ((c : Thread nD τ).loc main_arg1))) :=
  (W4_of_ne m ρ c main_v6 (by decide)).trans (W3_v6 m ρ c)

/-! ## Before the second region: the first aggregation -/

set_option maxHeartbeats 4000000 in
theorem W5_v26 (c : Dev nD) : W5 m ρ c (Proc.devRef .tc main_v26) = (Net.agg (m ((c : Thread nD τ).loc main_arg1)) (Net.h1 (m ((c : Thread nD τ).loc main_arg0)) (m ((c : Thread nD τ).loc main_arg1)) (m ((c : Thread nD τ).loc main_arg2)))) := by
  show StableHlo.after hostOps1 (W4 m ρ c) (Proc.devRef .tc main_v26) = _
  after_results
  rw [W4_v6 m ρ c, W4_v3 m ρ c, W4_v16 m ρ c]
  all_goals rfl
set_option maxHeartbeats 4000000 in
theorem W5_v27 (c : Dev nD) : W5 m ρ c (Proc.devRef .tc main_v27) = (Net.rowB (m ((c : Thread nD τ).loc main_arg3))) := by
  show StableHlo.after hostOps1 (W4 m ρ c) (Proc.devRef .tc main_v27) = _
  after_results
  rw [W4_arg3 m ρ c]
  all_goals rfl
set_option maxHeartbeats 4000000 in
theorem W5_v15 (c : Dev nD) : W5 m ρ c (Proc.devRef .tc main_v15) = (Net.dcol (m ((c : Thread nD τ).loc main_arg1))) := by
  show StableHlo.after hostOps1 (W4 m ρ c) (Proc.devRef .tc main_v15) = _
  after_results
  exact W4_v15 m ρ c
set_option maxHeartbeats 4000000 in
theorem W5_arg4 (c : Dev nD) : W5 m ρ c (Proc.devRef .tc main_arg4) = (m ((c : Thread nD τ).loc main_arg4)) := by
  show StableHlo.after hostOps1 (W4 m ρ c) (Proc.devRef .tc main_arg4) = _
  after_results
  exact W4_arg4 m ρ c
set_option maxHeartbeats 4000000 in
theorem W5_arg5 (c : Dev nD) : W5 m ρ c (Proc.devRef .tc main_arg5) = (m ((c : Thread nD τ).loc main_arg5)) := by
  show StableHlo.after hostOps1 (W4 m ρ c) (Proc.devRef .tc main_arg5) = _
  after_results
  exact W4_arg5 m ρ c
set_option maxHeartbeats 4000000 in
theorem W5_arg6 (c : Dev nD) : W5 m ρ c (Proc.devRef .tc main_arg6) = (m ((c : Thread nD τ).loc main_arg6)) := by
  show StableHlo.after hostOps1 (W4 m ρ c) (Proc.devRef .tc main_arg6) = _
  after_results
  exact W4_arg6 m ρ c
set_option maxHeartbeats 4000000 in
theorem W5_arg7 (c : Dev nD) : W5 m ρ c (Proc.devRef .tc main_arg7) = (m ((c : Thread nD τ).loc main_arg7)) := by
  show StableHlo.after hostOps1 (W4 m ρ c) (Proc.devRef .tc main_arg7) = _
  after_results
  exact W4_arg7 m ρ c
set_option maxHeartbeats 4000000 in
theorem W5_arg8 (c : Dev nD) : W5 m ρ c (Proc.devRef .tc main_arg8) = (m ((c : Thread nD τ).loc main_arg8)) := by
  show StableHlo.after hostOps1 (W4 m ρ c) (Proc.devRef .tc main_arg8) = _
  after_results
  exact W4_arg8 m ρ c
set_option maxHeartbeats 4000000 in
theorem W5_arg9 (c : Dev nD) : W5 m ρ c (Proc.devRef .tc main_arg9) = (m ((c : Thread nD τ).loc main_arg9)) := by
  show StableHlo.after hostOps1 (W4 m ρ c) (Proc.devRef .tc main_arg9) = _
  after_results
  exact W4_arg9 m ρ c
set_option maxHeartbeats 4000000 in
theorem W5_v3 (c : Dev nD) : W5 m ρ c (Proc.devRef .tc main_v3) = (Net.src (m ((c : Thread nD τ).loc main_arg1))) := by
  show StableHlo.after hostOps1 (W4 m ρ c) (Proc.devRef .tc main_v3) = _
  after_results
  exact W4_v3 m ρ c
set_option maxHeartbeats 4000000 in
theorem W5_v6 (c : Dev nD) : W5 m ρ c (Proc.devRef .tc main_v6) = (Net.dst (m ((c : Thread nD τ).loc main_arg1))) := by
  show StableHlo.after hostOps1 (W4 m ρ c) (Proc.devRef .tc main_v6) = _
  after_results
  exact W4_v6 m ρ c

/-! ## After the second region -/

set_option maxHeartbeats 4000000 in
theorem W6_v28 (c : Dev nD) : W6 m ρ c (Proc.devRef .tc main_v28) = (Net.h2 (m ((c : Thread nD τ).loc main_arg0)) (m ((c : Thread nD τ).loc main_arg1)) (m ((c : Thread nD τ).loc main_arg2)) (m ((c : Thread nD τ).loc main_arg3)) (m ((c : Thread nD τ).loc main_arg4))) := by
  refine (W6_arr m ρ c 4).trans ((KVal.final1 (V5 m ρ) c).trans ?_)
  show midLayer (a := 20000) (W5 m ρ c (Proc.devRef .tc main_v26)) (W5 m ρ c (Proc.devRef .tc main_v15)) (W5 m ρ c (Proc.devRef .tc main_v27)) (W5 m ρ c (Proc.devRef .tc main_arg4)) = _
  rw [W5_v26, W5_v15, W5_v27, W5_arg4]
  rfl
set_option maxHeartbeats 4000000 in
theorem W6_v15 (c : Dev nD) : W6 m ρ c (Proc.devRef .tc main_v15) = (Net.dcol (m ((c : Thread nD τ).loc main_arg1))) :=
  ((W6_arr m ρ c 1).trans (((dat1 (V5 m ρ) c).arrAt_in 1 rfl _).trans (A_eq1 (V5 m ρ) c 1))).trans (W5_v15 m ρ c)
set_option maxHeartbeats 4000000 in
theorem W6_arg5 (c : Dev nD) : W6 m ρ c (Proc.devRef .tc main_arg5) = (m ((c : Thread nD τ).loc main_arg5)) :=
  (W6_of_ne m ρ c main_arg5 (by decide)).trans (W5_arg5 m ρ c)
set_option maxHeartbeats 4000000 in
theorem W6_arg6 (c : Dev nD) : W6 m ρ c (Proc.devRef .tc main_arg6) = (m ((c : Thread nD τ).loc main_arg6)) :=
  (W6_of_ne m ρ c main_arg6 (by decide)).trans (W5_arg6 m ρ c)
set_option maxHeartbeats 4000000 in
theorem W6_arg7 (c : Dev nD) : W6 m ρ c (Proc.devRef .tc main_arg7) = (m ((c : Thread nD τ).loc main_arg7)) :=
  (W6_of_ne m ρ c main_arg7 (by decide)).trans (W5_arg7 m ρ c)
set_option maxHeartbeats 4000000 in
theorem W6_arg8 (c : Dev nD) : W6 m ρ c (Proc.devRef .tc main_arg8) = (m ((c : Thread nD τ).loc main_arg8)) :=
  (W6_of_ne m ρ c main_arg8 (by decide)).trans (W5_arg8 m ρ c)
set_option maxHeartbeats 4000000 in
theorem W6_arg9 (c : Dev nD) : W6 m ρ c (Proc.devRef .tc main_arg9) = (m ((c : Thread nD τ).loc main_arg9)) :=
  (W6_of_ne m ρ c main_arg9 (by decide)).trans (W5_arg9 m ρ c)
set_option maxHeartbeats 4000000 in
theorem W6_v3 (c : Dev nD) : W6 m ρ c (Proc.devRef .tc main_v3) = (Net.src (m ((c : Thread nD τ).loc main_arg1))) :=
  (W6_of_ne m ρ c main_v3 (by decide)).trans (W5_v3 m ρ c)
set_option maxHeartbeats 4000000 in
theorem W6_v6 (c : Dev nD) : W6 m ρ c (Proc.devRef .tc main_v6) = (Net.dst (m ((c : Thread nD τ).loc main_arg1))) :=
  (W6_of_ne m ρ c main_v6 (by decide)).trans (W5_v6 m ρ c)

/-! ## Before the third region: the second aggregation -/

set_option maxHeartbeats 4000000 in
theorem W7_v38 (c : Dev nD) : W7 m ρ c (Proc.devRef .tc main_v38) = (Net.agg (m ((c : Thread nD τ).loc main_arg1)) (Net.h2 (m ((c : Thread nD τ).loc main_arg0)) (m ((c : Thread nD τ).loc main_arg1)) (m ((c : Thread nD τ).loc main_arg2)) (m ((c : Thread nD τ).loc main_arg3)) (m ((c : Thread nD τ).loc main_arg4)))) := by
  show StableHlo.after hostOps2 (W6 m ρ c) (Proc.devRef .tc main_v38) = _
  after_results
  rw [W6_v6 m ρ c, W6_v3 m ρ c, W6_v28 m ρ c]
  all_goals rfl
set_option maxHeartbeats 4000000 in
theorem W7_v39 (c : Dev nD) : W7 m ρ c (Proc.devRef .tc main_v39) = (Net.rowB (m ((c : Thread nD τ).loc main_arg5))) := by
  show StableHlo.after hostOps2 (W6 m ρ c) (Proc.devRef .tc main_v39) = _
  after_results
  rw [W6_arg5 m ρ c]
  all_goals rfl
set_option maxHeartbeats 4000000 in
theorem W7_v40 (c : Dev nD) : W7 m ρ c (Proc.devRef .tc main_v40) = (Net.rowB (m ((c : Thread nD τ).loc main_arg7))) := by
  show StableHlo.after hostOps2 (W6 m ρ c) (Proc.devRef .tc main_v40) = _
  after_results
  rw [W6_arg7 m ρ c]
  all_goals rfl
set_option maxHeartbeats 4000000 in
theorem W7_v41 (c : Dev nD) : W7 m ρ c (Proc.devRef .tc main_v41) = (Net.rowB128 (m ((c : Thread nD τ).loc main_arg9))) := by
  show StableHlo.after hostOps2 (W6 m ρ c) (Proc.devRef .tc main_v41) = _
  after_results
  rw [W6_arg9 m ρ c]
  all_goals rfl
set_option maxHeartbeats 4000000 in
theorem W7_v15 (c : Dev nD) : W7 m ρ c (Proc.devRef .tc main_v15) = (Net.dcol (m ((c : Thread nD τ).loc main_arg1))) := by
  show StableHlo.after hostOps2 (W6 m ρ c) (Proc.devRef .tc main_v15) = _
  after_results
  exact W6_v15 m ρ c
set_option maxHeartbeats 4000000 in
theorem W7_arg6 (c : Dev nD) : W7 m ρ c (Proc.devRef .tc main_arg6) = (m ((c : Thread nD τ).loc main_arg6)) := by
  show StableHlo.after hostOps2 (W6 m ρ c) (Proc.devRef .tc main_arg6) = _
  after_results
  exact W6_arg6 m ρ c
set_option maxHeartbeats 4000000 in
theorem W7_arg8 (c : Dev nD) : W7 m ρ c (Proc.devRef .tc main_arg8) = (m ((c : Thread nD τ).loc main_arg8)) := by
  show StableHlo.after hostOps2 (W6 m ρ c) (Proc.devRef .tc main_arg8) = _
  after_results
  exact W6_arg8 m ρ c

/-! ## After the third region: the result -/

set_option maxHeartbeats 4000000 in
/-- THE RESULT TABLE at the end of the run is the network of the arguments as launched. -/
theorem W8_v42 (c : Dev nD) : W8 m ρ c (Proc.devRef .tc main_v42) = (Net.net (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) := by
  refine (W8_arr m ρ c 7).trans ((KVal.final2 (V7 m ρ) c).trans ?_)
  show headLayer (a := 20000) (W7 m ρ c (Proc.devRef .tc main_v38)) (W7 m ρ c (Proc.devRef .tc main_v15)) (W7 m ρ c (Proc.devRef .tc main_v39)) (W7 m ρ c (Proc.devRef .tc main_arg6)) (W7 m ρ c (Proc.devRef .tc main_v40)) (W7 m ρ c (Proc.devRef .tc main_arg8)) (W7 m ρ c (Proc.devRef .tc main_v41)) = _
  rw [W7_v38, W7_v15, W7_v39, W7_arg6, W7_v40, W7_arg8, W7_v41]
  rfl

end Cert.KernelIdeal.KChain

end
-- ==== Proof.LibScatterAdd.lean ====
/-
  The host's accumulating float scatter with ONE scattered operand axis, read at an operand index at the ideal
  values. The scatter indices are a column [U, 1] of integer words, one per update row; update row `u` is added
  into operand row `idx[u, 0]` (read as a signed integer), and is dropped when that is no row of the operand.
  So the result at row `r` is the operand's element plus the sum, over the update rows `u` whose index word is
  `r`, of the update's element (in the same column, when the rows have columns).

  Two layouts: an operand [S, C] with updates [U, C] (whole rows are scattered: the update's second axis is the
  window axis), and an operand [S] with updates [U] (single elements are scattered: no window axis).
-/
import Idealize.ShloMosaic.PureOps.Ideal
import Idealize.ShloMosaic.Lib.ValueIdx

noncomputable section

open scoped BigOperators

namespace Idealize.ShloMosaic

open ValueIdx

/-- An update index lands on the operand index `i` exactly when, on every operand axis, its window's start plus
    its window coordinate is `i`'s coordinate. -/
theorem ScatterDims.resultIdx?_eq_some_iff {s si u : Shape} (d : ScatterDims s si u) {w : ℕ} (j : u.Idx) (idx : IVec si w)
    (i : s.Idx) : d.resultIdx? j idx = some i ↔ ∀ a, d.start j idx a + (d.window j a : ℤ) = ((i a).val : ℤ) := by
  unfold ScatterDims.resultIdx?
  constructor
  · intro h a
    split at h
    · next hall =>
      have e := congrFun (Option.some.inj h) a
      have ev : (d.start j idx a + (d.window j a : ℤ)).toNat = (i a).val := congrArg Fin.val e
      have := (hall a).1
      omega
    · exact absurd h (by simp)
  · intro h
    have hall : ∀ a, 0 ≤ d.start j idx a + (d.window j a : ℤ) ∧ d.start j idx a + (d.window j a : ℤ) < s.size a := by
      intro a
      have := (i a).isLt
      rw [h a]
      exact ⟨Int.natCast_nonneg _, by exact_mod_cast this⟩
    rw [dif_pos hall]
    refine congrArg some (funext fun a => Fin.ext ?_)
    show (d.start j idx a + (d.window j a : ℤ)).toNat = (i a).val
    rw [h a, Int.toNat_natCast]

/-- A rank-1 index set is its coordinate's range … -/
def idxEquiv1 {n : ℕ} : (⟨1, ![n]⟩ : Shape).Idx ≃ Fin n where
  toFun i := i 0
  invFun a := ix1 a
  left_inv i := (eq_ix1 i).symm
  right_inv _ := rfl
/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-! ## Whole rows scattered: operand [S, C], indices [U, 1], updates [U, C] -/

section Rows
variable {S C U w : ℕ}

private theorem rows_sKept (wf) :
    (ScatterDims.mk (s := ⟨2, ![S, C]⟩) (si := ⟨2, ![U, 1]⟩) (u := ⟨2, ![U, C]⟩) [1] [0] [0] 1 wf).sKept = [1] := rfl

private theorem rows_start0 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem rows_start1 (wf) (idx : IVec ⟨2, ![U, 1]⟩ w) (u : Fin U) (c : Fin C) :
    (ScatterDims.mk (s := ⟨2, ![S, C]⟩) (si := ⟨2, ![U, 1]⟩) (u := ⟨2, ![U, C]⟩) [1] [0] [0] 1 wf).start (ix2 u c) idx 1 = 0 := by
  unfold ScatterDims.start
  rw [dif_neg (fun h => absurd (congrArg Fin.val (List.mem_singleton.mp h)) Nat.one_ne_zero)]

private theorem rows_window0 (wf) (u : Fin U) (c : Fin C) :
    (ScatterDims.mk (s := ⟨2, ![S, C]⟩) (si := ⟨2, ![U, 1]⟩) (u := ⟨2, ![U, C]⟩) [1] [0] [0] 1 wf).window (ix2 u c) 0 = 0 := by
  unfold ScatterDims.window
  rw [dif_neg (by rw [rows_sKept]; exact fun h => absurd (congrArg Fin.val (List.mem_singleton.mp h)) Nat.zero_ne_one)]

private theorem rows_window1 (wf) (u : Fin U) (c : Fin C) :
    (ScatterDims.mk (s := ⟨2, ![S, C]⟩) (si := ⟨2, ![U, 1]⟩) (u := ⟨2, ![U, C]⟩) [1] [0] [0] 1 wf).window (ix2 u c) 1 = c.val := by
  unfold ScatterDims.window
  rw [dif_pos (by rw [rows_sKept]; exact List.mem_singleton.mpr rfl)]
  rfl

/-- Update element `(u, c)` lands on operand element `(r, c')` exactly when row `u`'s index word is `r` and the columns agree. -/
theorem ScatterDims.rows_resultIdx?_eq_some_iff (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (idx : IVec ⟨2, ![U, 1]⟩ w) (u : Fin U) (c : Fin C) (r : Fin S) (c' : Fin C) :
    d.resultIdx? (ix2 u c) idx = some (ix2 r c') ↔ (idx (ix2 u 0)).toInt = (r.val : ℤ) ∧ c = c' := by
  obtain ⟨uw, iw, sd, iv, wf⟩ := d
  dsimp only at huw hiw hsd hiv
  subst huw hiw hsd hiv
  rw [ScatterDims.resultIdx?_eq_some_iff, Fin.forall_fin_two, rows_start0, rows_start1, rows_window0, rows_window1]
  show (idx (ix2 u 0)).toInt + ((0 : ℕ) : ℤ) = (r.val : ℤ) ∧ (0 : ℤ) + (c.val : ℤ) = (c'.val : ℤ) ↔ _
  constructor
  · rintro ⟨h0, h1⟩
    exact ⟨by omega, Fin.ext (by omega)⟩
  · rintro ⟨h0, rfl⟩
    exact ⟨by omega, by omega⟩

/-- THE ROW SCATTER READ AT `(r, c)`: the operand's element plus the sum over the update rows whose index word is `r`
    of the update's element in column `c`. -/
theorem Host.scatterAdd_rows_apply {φ : FTy} (d : ScatterDims ⟨2, ![S, C]⟩ ⟨2, ![U, 1]⟩ ⟨2, ![U, C]⟩)
    (huw : d.updateWindowDims = [1]) (hiw : d.insertedWindowDims = [0]) (hsd : d.scatterDimsToOperandDims = [0])
    (hiv : d.indexVectorDim = 1) (x : FVec Ideal ⟨2, ![S, C]⟩ φ) (idx : IVec ⟨2, ![U, 1]⟩ w)
    (upd : FVec Ideal ⟨2, ![U, C]⟩ φ) (r : Fin S) (c : Fin C) :
    Host.scatterAdd d x idx upd (ix2 r c)
      = x (ix2 r c) + ∑ u : Fin U, if (idx (ix2 u 0)).toInt = (r.val : ℤ) then upd (ix2 u c) else 0 := by
  unfold Host.scatterAdd
  rw [Ideal.hostScatterAdd_def]
  unfold Ideal.hostScatterAdd
  refine congrArg (x (ix2 r c) + ·) ?_
  rw [Finset.sum_filter, sum_idx2]
  refine Finset.sum_congr rfl fun u _ => ?_
  by_cases hu : (idx (ix2 u 0)).toInt = (r.val : ℤ)
  · rw [if_pos hu]
    rw [Finset.sum_eq_single c]
    · rw [if_pos ((ScatterDims.rows_resultIdx?_eq_some_iff d huw hiw hsd hiv idx u c r c).2 ⟨hu, rfl⟩)]
    · intro c' _ hc'
      rw [if_neg fun h => hc' ((ScatterDims.rows_resultIdx?_eq_some_iff d huw hiw hsd hiv idx u c' r c).1 h).2]
    · intro h; exact absurd (Finset.mem_univ c) h
  · rw [if_neg hu]
    refine Finset.sum_eq_zero fun c' _ => ?_
    rw [if_neg fun h => hu ((ScatterDims.rows_resultIdx?_eq_some_iff d huw hiw hsd hiv idx u c' r c).1 h).1]

end Rows

/-! ## Single elements scattered: operand [S], indices [U, 1], updates [U] -/

section Elements
variable {S U w : ℕ}

private theorem elts_sKept (wf) :
    (ScatterDims.mk (s := ⟨1, ![S]⟩) (si := ⟨2, ![U, 1]⟩) (u := ⟨1, ![U]⟩) [] [0] [0] 1 wf).sKept = [] := rfl

private theorem elts_start0 (wf) (idx : IVec ⟨2, ![U, 1]⟩ w) (u : Fin U) :
    (ScatterDims.mk (s := ⟨1, ![S]⟩) (si := ⟨2, ![U, 1]⟩) (u := ⟨1, ![U]⟩) [] [0] [0] 1 wf).start (ix1 u) idx 0
      = (idx (ix2 u 0)).toInt := by
  unfold ScatterDims.start
  rw [dif_pos (List.mem_singleton.mpr rfl)]
  refine congrArg (fun k => (idx k).toInt) ?_
  funext b
  refine Fin.ext ?_
  match b with
  | ⟨0, _⟩ => rfl
  | ⟨1, _⟩ => rfl

private theorem elts_window0 (wf) (u : Fin U) :
    (ScatterDims.mk (s := ⟨1, ![S]⟩) (si := ⟨2, ![U, 1]⟩) (u := ⟨1, ![U]⟩) [] [0] [0] 1 wf).window (ix1 u) 0 = 0 := by
  unfold ScatterDims.window
  rw [dif_neg (by rw [elts_sKept]; exact List.not_mem_nil)]

/-- Update element `u` lands on operand element `r` exactly when its index word is `r`. -/
theorem ScatterDims.elts_resultIdx?_eq_some_iff (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (idx : IVec ⟨2, ![U, 1]⟩ w) (u : Fin U) (r : Fin S) :
    d.resultIdx? (ix1 u) idx = some (ix1 r) ↔ (idx (ix2 u 0)).toInt = (r.val : ℤ) := by
  obtain ⟨uw, iw, sd, iv, wf⟩ := d
  dsimp only at huw hiw hsd hiv
  subst huw hiw hsd hiv
  rw [ScatterDims.resultIdx?_eq_some_iff]
  constructor
  · intro h
    have h0 := h 0
    rw [elts_start0, elts_window0] at h0
    have : ((ix1 r : (⟨1, ![S]⟩ : Shape).Idx) 0).val = r.val := rfl
    omega
  · intro h a
    obtain rfl : a = 0 := Subsingleton.elim _ _
    rw [elts_start0, elts_window0]
    have : ((ix1 r : (⟨1, ![S]⟩ : Shape).Idx) 0).val = r.val := rfl
    omega

/-- THE ELEMENT SCATTER READ AT `r`: the operand's element plus the sum of the updates whose index word is `r`. -/
theorem Host.scatterAdd_elts_apply {φ : FTy} (d : ScatterDims ⟨1, ![S]⟩ ⟨2, ![U, 1]⟩ ⟨1, ![U]⟩)
    (huw : d.updateWindowDims = []) (hiw : d.insertedWindowDims = [0]) (hsd : d.scatterDimsToOperandDims = [0])
    (hiv : d.indexVectorDim = 1) (x : FVec Ideal ⟨1, ![S]⟩ φ) (idx : IVec ⟨2, ![U, 1]⟩ w)
    (upd : FVec Ideal ⟨1, ![U]⟩ φ) (r : Fin S) :
    Host.scatterAdd d x idx upd (ix1 r)
      = x (ix1 r) + ∑ u : Fin U, if (idx (ix2 u 0)).toInt = (r.val : ℤ) then upd (ix1 u) else 0 := by
  unfold Host.scatterAdd
  rw [Ideal.hostScatterAdd_def]
  unfold Ideal.hostScatterAdd
  refine congrArg (x (ix1 r) + ·) ?_
  rw [Finset.sum_filter, sum_idx1]
  refine Finset.sum_congr rfl fun u _ => ?_
  by_cases hu : (idx (ix2 u 0)).toInt = (r.val : ℤ)
  · rw [if_pos hu, if_pos ((ScatterDims.elts_resultIdx?_eq_some_iff d huw hiw hsd hiv idx u r).2 hu)]
  · rw [if_neg hu, if_neg fun h => hu ((ScatterDims.elts_resultIdx?_eq_some_iff d huw hiw hsd hiv idx u r).1 h)]

end Elements

end Idealize.ShloMosaic

end
-- ==== Proof.LibGather.lean ====
/-
  `stablehlo.gather` AT A COLUMN OF START INDICES, READ AT AN INDEX.

  The start indices are an integer array of shape `[U, 1]` whose last axis is the index vector's
  (`index_vector_dim = 1`), so result row `u` has the one-component start index `idx[u, 0]`, and the start
  index map sends that component to operand axis `0`, which is collapsed (slice size `1`). StableHLO clamps a
  start index so that the slice fits inside the operand: on axis `0`, of extent `S` and slice size `1`, the word
  `idx[u, 0]` is read as a signed integer and clamped into `[0, S - 1]` — a negative word reads row `0`, a word
  of `S` or more reads row `S - 1`. Write `r u = min (max (idx[u, 0]) 0) (S - 1)` for that row. Then

  * WHOLE ROWS (`gather_rows_apply`): for an operand `[S, C]` with offset axis `1` of the result `[U, C]` and
    slice sizes `[1, C]`, the result's element `(u, c)` is the operand's `(r u, c)`: on operand axis `1` the start
    is `0` (the start index map does not name it) and the offset coordinate is the result's `c`;
  * SINGLE ELEMENTS (`gather_elts_apply`): for an operand `[S]`, no offset axis, result `[U]` and slice sizes
    `[1]`, the result's element `u` is the operand's `r u`.

  Neither has batching axes. The dimension numbers are a hypothesis on the record's fields, so the lemmas apply to
  any record with these lists, whatever proof of its well-formedness it carries.
-/
import Idealize.ShloMosaic.PureOps.Ideal
import Idealize.ShloMosaic.Lib.ValueIdx

namespace Idealize.ShloMosaic

open ValueIdx

/-- WHOLE ROWS: `gather` of an operand `[S, C]` at a column `[U, 1]` of start indices into operand axis `0`
    (collapsed, slice sizes `[1, C]`, offset axis `1`), read at `(u, c)`: the operand at row `idx[u, 0]`, read
    signed and clamped into `[0, S - 1]`, and column `c`. -/
theorem Host.gather_rows_apply {α : Type} {S C U w : ℕ} (hS : 0 < S)
    (d : GatherDims ⟨2, ![S, C]⟩ ⟨2, ![U, 1]⟩ ⟨2, ![U, C]⟩)
    (hod : d.offsetDims = [1]) (hcs : d.collapsedSliceDims = [0]) (hob : d.operandBatchingDims = [])
    (hsb : d.startIndicesBatchingDims = []) (hsm : d.startIndexMap = [0]) (hiv : d.indexVectorDim = 1)
    (hss : d.sliceSizes = ![1, C])
    (x : (⟨2, ![S, C]⟩ : Shape).Idx → α) (idx : IVec ⟨2, ![U, 1]⟩ w) (u : Fin U) (c : Fin C) :
    Host.gather d x idx (ix2 u c) = x (ix2 ⟨min (idx (ix2 u 0)).toInt.toNat (S - 1), by omega⟩ c) := by
  obtain ⟨od, cs, ob, sb, sm, iv, ss, wf⟩ := d
  dsimp only at hod hcs hob hsb hsm hiv hss
  subst hod hcs hob hsb hsm hiv hss
  unfold Host.gather
  congr 1
  funext a
  refine Fin.ext ?_
  match a with
  | ⟨0, _⟩ =>
    show GatherDims.start _ (ix2 u c) idx 0 + GatherDims.batchCoord _ (ix2 u c) 0 + GatherDims.offCoord _ (ix2 u c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg₂ min (congrArg (fun i => (idx i).toInt.toNat) ?_) rfl
    funext b
    refine Fin.ext ?_
    match b with
    | ⟨0, _⟩ => rfl
    | ⟨1, _⟩ => rfl
  | ⟨1, _⟩ =>
    show GatherDims.start _ (ix2 u c) idx 1 + GatherDims.batchCoord _ (ix2 u c) 1 + GatherDims.offCoord _ (ix2 u c) 1 = c.val
    rw [GatherDims.batchCoord_eq_zero _ _ _ List.not_mem_nil]
    unfold GatherDims.start
    rw [dif_neg (show (1 : Fin 2) ∉ ([0] : List (Fin 2)) by decide)]
    unfold GatherDims.offCoord
    rw [dif_pos ((GatherDims.mem_sKept _ _).mpr ⟨show (1 : Fin 2) ∉ ([0] : List (Fin 2)) by decide, List.not_mem_nil⟩)]
    simp only [Nat.add_zero, Nat.zero_add]
    rfl

/-- SINGLE ELEMENTS: `gather` of an operand `[S]` at a column `[U, 1]` of start indices into operand axis `0`
    (collapsed, slice sizes `[1]`, no offset axis), read at `u`: the operand at `idx[u, 0]`, read signed and
    clamped into `[0, S - 1]`. -/
theorem Host.gather_elts_apply {α : Type} {S U w : ℕ} (hS : 0 < S)
    (d : GatherDims ⟨1, ![S]⟩ ⟨2, ![U, 1]⟩ ⟨1, ![U]⟩)
    (hod : d.offsetDims = []) (hcs : d.collapsedSliceDims = [0]) (hob : d.operandBatchingDims = [])
    (hsb : d.startIndicesBatchingDims = []) (hsm : d.startIndexMap = [0]) (hiv : d.indexVectorDim = 1)
    (hss : d.sliceSizes = ![1])
    (x : (⟨1, ![S]⟩ : Shape).Idx → α) (idx : IVec ⟨2, ![U, 1]⟩ w) (u : Fin U) :
    Host.gather d x idx (ix1 u) = x (ix1 ⟨min (idx (ix2 u 0)).toInt.toNat (S - 1), by omega⟩) := by
  obtain ⟨od, cs, ob, sb, sm, iv, ss, wf⟩ := d
  dsimp only at hod hcs hob hsb hsm hiv hss
  subst hod hcs hob hsb hsm hiv hss
  unfold Host.gather
  congr 1
  funext a
  obtain rfl : a = 0 := Subsingleton.elim _ _
  refine Fin.ext ?_
  show GatherDims.start _ (ix1 u) idx 0 + GatherDims.batchCoord _ (ix1 u) 0 + GatherDims.offCoord _ (ix1 u) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  refine congrArg₂ min (congrArg (fun i => (idx i).toInt.toNat) ?_) rfl
  funext b
  refine Fin.ext ?_
  match b with
  | ⟨0, _⟩ => rfl
  | ⟨1, _⟩ => rfl

end Idealize.ShloMosaic
-- ==== Proof.RefLayer.lean ====
/-
  One graph layer, read both ways at a node n and a feature k.
  An edge u has a sender (its sender word, shifted if negative, clamped into the node table: `sNode`), a receiver word
  (`dWord`; the edge arrives at node n when that word, read as a signed integer, is n) and, for the table of factors, the
  receiver that the shifted and clamped word names (`dnNode`). An edge that arrives at n has receiver n: a word that reads
  as a node's number is not negative, so it is not shifted, and is not clamped (`dnNode_of_dWord`).
  * The AGGREGATION of a table Z at (n, k) is the sum, over the edges arriving at n, of Z at (sender, k) (`agg_apply`).
  * The reference's aggregation of a table h, every gathered row multiplied by the factors of the edge's sender and receiver
    before the sum, is at (n, k) the sum over the arriving edges of h(sender, k) · (d(sender) · d(receiver)) (`refAgg_apply`).
  By the layer law (Spec.lean), the epilogue of the aggregation of the table h(i) · d(row i) — the factor of n applied
  after the sum — is the reference's aggregation plus the bias, cut off at zero (`layer_eq`).
-/
import proofs.«151695_j15977278341604_2_alg».proof.Proof.RefReadPatched
import proofs.«151695_j15977278341604_2_alg».proof.Proof.Net
import proofs.«151695_j15977278341604_2_alg».proof.Proof.LibScatterAdd
import proofs.«151695_j15977278341604_2_alg».proof.Proof.LibGather
import proofs.«151695_j15977278341604_2_alg».proof.Proof.KPay
import Idealize.ShloMosaic.Lib.ValueLayout
import Idealize.ShloMosaic.Lib.Pipeline.Value

noncomputable section

open scoped BigOperators

namespace Cert.ReferenceIdeal.RefNet

open Cert.ReferenceIdeal Cert.ReferenceIdeal.Gen Cert.ReferenceIdeal.ReadP Cert.Gcn Idealize.ShloMosaic Idealize.ShloMosaic.ValueIdx

variable (e : IVec S2x320000 32)

/-! ## Edges -/

/-- The node a word names once clamped into the table. -/
def node (w : BitVec 32) : Fin 20000 := ⟨min w.toInt.toNat (20000 - 1), by omega⟩

/-- Edge `u`'s sender. -/
def sNode (u : Fin 340000) : Fin 20000 := node (Net.col (Net.nrm (Net.src e)) (ix2 u (0 : Fin 1)))
/-- Edge `u`'s receiver as the factors' table reads it. -/
def dnNode (u : Fin 340000) : Fin 20000 := node (Net.col (Net.nrm (Net.dst e)) (ix2 u (0 : Fin 1)))
/-- Edge `u`'s receiver word as a signed integer. -/
def dWord (u : Fin 340000) : ℤ := (Net.col (Net.dst e) (ix2 u (0 : Fin 1))).toInt
/-- Node `n`'s factor. -/
def dv (n : Fin 20000) : EReal := Net.dinv e (ix1 n)

/-- A column of index vectors reads, at (u, 0), the word u. -/
theorem col_apply (v : IVec S340000 32) (u : Fin 340000) : Net.col v (ix2 u (0 : Fin 1)) = v (ix1 u) := by
  unfold Net.col
  refine broadcastInDim_apply _ _ v (ix2 u (0 : Fin 1)) (ix1 u) fun a => ?_
  match a with
  | ⟨0, _⟩ =>
    show u.val = if (340000 : ℕ) = 1 then 0 else u.val
    rw [if_neg (by decide)]

/-- The shift of negative words, at a word. -/
theorem nrm_apply (v : IVec S340000 32) (u : Fin 340000) :
    Net.nrm v (ix1 u) = Scalar.select (IntOp.cmpi .slt (v (ix1 u)) 0#32) (IntOp.addi (v (ix1 u)) 20000#32) (v (ix1 u)) := rfl

/-- A word that reads as a natural number is not shifted. -/
theorem shift_of_toInt_nat (w : BitVec 32) (n : ℕ) (h : w.toInt = (n : ℤ)) :
    Scalar.select (IntOp.cmpi .slt w 0#32) (IntOp.addi w 20000#32) w = w := by
  have hs : w.slt 0#32 = false := by
    rw [BitVec.slt, h]
    simp
  unfold IntOp.cmpi Scalar.select
  simp [hs]

/-- An edge that arrives at node `n` has receiver `n`. -/
theorem dnNode_of_dWord (u : Fin 340000) (n : Fin 20000) (h : dWord e u = (n.val : ℤ)) : dnNode e u = n := by
  unfold dWord at h
  rw [col_apply] at h
  unfold dnNode
  rw [col_apply, nrm_apply, shift_of_toInt_nat _ n.val h]
  unfold node
  refine Fin.ext ?_
  show min ((Net.dst e (ix1 u)).toInt.toNat) (20000 - 1) = n.val
  rw [h, Int.toNat_natCast]
  have := n.isLt
  omega

set_option maxRecDepth 1000000 in
/-- Node `n`'s factor is the normalisation factor of its degree. -/
theorem dv_eq (n : Fin 20000) : dv e n = normFactor (Net.deg e (ix1 n)) := by
  unfold dv Net.dinv normFactor
  exact (ValueIdx.select_apply _ _ _ (ix1 n)).trans rfl

theorem dv_nonneg (n : Fin 20000) : 0 ≤ dv e n := by rw [dv_eq]; exact normFactor_nonneg _
theorem dv_ne_top (n : Fin 20000) : dv e n ≠ ⊤ := by rw [dv_eq]; exact normFactor_ne_top _

/-- The factors' column at (n, 0) is node n's factor. -/
theorem dcol_apply (n : Fin 20000) : Net.dcol e (ix2 n (0 : Fin 1)) = dv e n :=
  Cert.KernelIdeal.KPay.shapeCast_a_a1_apply _ _ n

/-- A bias as a one-row table at (0, k) is the bias's entry k. -/
theorem rowB_apply (b : FVec Ideal S512 .f32) (k : Fin 512) : Net.rowB b (ix2 (0 : Fin 1) k) = b (ix1 k) :=
  shapeCast_a_1a_apply b _ 0 k
theorem rowB128_apply (b : FVec Ideal S128 .f32) (k : Fin 128) : Net.rowB128 b (ix2 (0 : Fin 1) k) = b (ix1 k) :=
  shapeCast_a_1a_apply b _ 0 k

/-! ## The two aggregations -/

/-- The aggregation at (n, k): the sum over the edges arriving at n of the table at (sender, k). -/
theorem agg_apply (Z : FVec Ideal S20000x512 .f32) (n : Fin 20000) (k : Fin 512) :
    Net.agg e Z (ix2 n k) = zeroF + ∑ u : Fin 340000, if dWord e u = (n.val : ℤ) then Z (ix2 (sNode e u) k) else 0 := by
  unfold Net.agg Net.aggOf
  rw [Host.scatterAdd_rows_apply _ rfl rfl rfl rfl]
  refine congrArg₂ (· + ·) rfl (Finset.sum_congr rfl fun u _ => ?_)
  rw [Host.gather_rows_apply (by decide) _ rfl rfl rfl rfl rfl rfl rfl]
  rfl

/-- The reference's aggregation of a table `h`: each gathered row multiplied by its edge's two factors, then summed. -/
def refAgg (h : FVec Ideal S20000x512 .f32) : FVec Ideal S20000x512 .f32 :=
  Host.scatterAdd scatter_S20000x512_S340000x1_S340000x512_1_0_0_1
    (broadcastInDim S20000x512 ![] bcast_S_S20000x512 (constant (F := Ideal) S_ .f32 0x00000000#32)) (Net.col (Net.dst e))
    (mulf (Host.gather gather_S20000x512_S340000x1_S340000x512_1_0_n_n_0_1_1512 h (Net.col (Net.nrm (Net.src e))))
      (broadcastInDim S340000x512 ![0, 1] bcast_S340000x1_S340000x512_0_1
        (broadcastInDim S340000x1 ![0] bcast_S340000_S340000x1_0
          (mulf (Host.gather gather_S20000_S340000x1_S340000_n_0_n_n_0_1_1 (Net.dinv e) (Net.col (Net.nrm (Net.src e))))
            (Host.gather gather_S20000_S340000x1_S340000_n_0_n_n_0_1_1 (Net.dinv e) (Net.col (Net.nrm (Net.dst e))))))))

/-- An edge's factor product, spread over the features, at (u, k). -/
theorem norm_apply (v : FVec Ideal S340000 .f32) (u : Fin 340000) (k : Fin 512) :
    broadcastInDim S340000x512 ![0, 1] bcast_S340000x1_S340000x512_0_1
      (broadcastInDim S340000x1 ![0] bcast_S340000_S340000x1_0 v) (ix2 u k) = v (ix1 u) := by
  refine (broadcastInDim_apply _ _ _ (ix2 u k) (ix2 u (0 : Fin 1)) fun a => ?_).trans
    (broadcastInDim_apply _ _ v (ix2 u (0 : Fin 1)) (ix1 u) fun a => ?_)
  · match a with
    | ⟨0, _⟩ =>
      show u.val = if (340000 : ℕ) = 1 then 0 else u.val
      rw [if_neg (by decide)]
    | ⟨1, _⟩ => rfl
  · match a with
    | ⟨0, _⟩ =>
      show u.val = if (340000 : ℕ) = 1 then 0 else u.val
      rw [if_neg (by decide)]

theorem refAgg_apply (h : FVec Ideal S20000x512 .f32) (n : Fin 20000) (k : Fin 512) :
    refAgg e h (ix2 n k)
      = zeroF + ∑ u : Fin 340000, if dWord e u = (n.val : ℤ) then h (ix2 (sNode e u) k) * (dv e (sNode e u) * dv e (dnNode e u)) else 0 := by
  unfold refAgg
  rw [Host.scatterAdd_rows_apply _ rfl rfl rfl rfl]
  refine congrArg₂ (· + ·) rfl (Finset.sum_congr rfl fun u _ => ?_)
  refine if_congr Iff.rfl ?_ rfl
  rw [ValueIdx.mulf_apply, Host.gather_rows_apply (by decide) _ rfl rfl rfl rfl rfl rfl rfl, norm_apply, ValueIdx.mulf_apply,
    Host.gather_elts_apply (by decide) _ rfl rfl rfl rfl rfl rfl rfl, Host.gather_elts_apply (by decide) _ rfl rfl rfl rfl rfl rfl rfl]
  rfl

/-! ## The layer -/

/-- THE LAYER, both ways: the factor applied after the sum against the factors applied to every message. -/
theorem layer_eq (h : FVec Ideal S20000x512 .f32) (b : FVec Ideal S512 .f32) (n : Fin 20000) (k : Fin 512) :
    epilogue (a := 20000) (Net.agg e (fun i => h i * Net.dcol e (ix2 (rowOf i) (0 : Fin 1)))) (Net.dcol e) (Net.rowB b) (ix2 n k)
      = max (refAgg e h (ix2 n k) + b (ix1 k)) zeroF := by
  show max (Net.dcol e (ix2 n (0 : Fin 1)) * Net.agg e _ (ix2 n k) + Net.rowB b (ix2 (0 : Fin 1) k)) zeroF = _
  rw [agg_apply, refAgg_apply, dcol_apply, rowB_apply]
  refine congrArg (fun t => max (t + b (ix1 k)) zeroF) ?_
  have hl := layer_law (fun n' => h (ix2 n' k)) (dv e) (dv_nonneg e) (dv_ne_top e) (sNode e) (dWord e) (dnNode e)
    (dnNode_of_dWord e) n
  refine Eq.trans ?_ hl
  refine congrArg (fun t => dv e n * (zeroF + t)) (Finset.sum_congr rfl fun u _ => ?_)
  refine if_congr Iff.rfl ?_ rfl
  show h (ix2 (sNode e u) k) * Net.dcol e (ix2 (sNode e u) (0 : Fin 1)) = _
  rw [dcol_apply]

end Cert.ReferenceIdeal.RefNet

end
-- ==== Proof.RefNet.lean ====
/-
  The reference's result is the network (Net.lean) of its arguments.
  The reference computes, stage by stage: the product x · W₁; its aggregation with every message multiplied by the
  sender's and the receiver's factors, plus the bias, cut off at zero; the product of that with W₂; the same aggregation
  and cut-off again; a dense layer with cut-off; the logits; and the row softmax with its maximum taken against minus
  infinity once more. Read at an index, each stage is the corresponding layer of the network:
  * the two graph layers by the layer equality (RefLayer.lean), the product x · W₁ (then the product of the first layer
    with W₂) being the table whose rows the aggregation gathers, and the network's scaled product being that table with
    each row multiplied by its node's factor;
  * the dense layer and the logits term by term, a host matrix product being the sum over the contracted axis;
  * the softmax because the host's row maximum is the fold of max from minus infinity (whose maximum with minus infinity
    is itself), and the host's row sum from zero is the sum.
-/
import proofs.«151695_j15977278341604_2_alg».proof.Proof.RefLayer

set_option maxRecDepth 100000

noncomputable section

open scoped BigOperators

namespace Cert.ReferenceIdeal.RefNet

open Cert.ReferenceIdeal Cert.ReferenceIdeal.Gen Cert.ReferenceIdeal.ReadP Cert.Gcn Idealize.ShloMosaic Idealize.ShloMosaic.ValueIdx

variable (x0 : FVec Ideal S20000x512 .f32) (e : IVec S2x320000 32) (x2 : FVec Ideal S512x512 .f32) (x3 : FVec Ideal S512 .f32)
  (x4 : FVec Ideal S512x512 .f32) (x5 : FVec Ideal S512 .f32) (x6 : FVec Ideal S512x512 .f32) (x7 : FVec Ideal S512 .f32)
  (x8 : FVec Ideal S512x128 .f32) (x9 : FVec Ideal S128 .f32)

/-! ## Two host operations at an index -/

theorem hostExp_apply {s : Shape} (x : FVec Ideal s .f32) (i : s.Idx) : Host.exp x i = Ideal.exp (x i) := rfl
theorem hostDivf_apply {s : Shape} (a b : FVec Ideal s .f32) (i : s.Idx) : Host.divf a b i = Ideal.div (a i) (b i) := rfl

/-! ## Biases and kept columns spread over a table -/

/-- A bias spread over the rows of a 512-column table reads, at (n, k), the bias's entry k. -/
theorem bias512_apply (b : FVec Ideal S512 .f32) (n : Fin 20000) (k : Fin 512) :
    broadcastInDim S20000x512 ![0, 1] bcast_S1x512_S20000x512_0_1 (broadcastInDim S1x512 ![1] bcast_S512_S1x512_1 b) (ix2 n k)
      = b (ix1 k) := by
  refine (broadcastInDim_apply _ _ _ (ix2 n k) (ix2 (0 : Fin 1) k) fun a => ?_).trans
    (broadcastInDim_apply _ _ b (ix2 (0 : Fin 1) k) (ix1 k) fun a => ?_)
  · match a with
    | ⟨0, _⟩ => rfl
    | ⟨1, _⟩ =>
      show k.val = if (512 : ℕ) = 1 then 0 else k.val
      rw [if_neg (by decide)]
  · match a with
    | ⟨0, _⟩ =>
      show k.val = if (512 : ℕ) = 1 then 0 else k.val
      rw [if_neg (by decide)]

/-- The same over a 128-column table. -/
theorem bias128_apply (b : FVec Ideal S128 .f32) (n : Fin 20000) (k : Fin 128) :
    broadcastInDim S20000x128 ![0, 1] bcast_S1x128_S20000x128_0_1 (broadcastInDim S1x128 ![1] bcast_S128_S1x128_1 b) (ix2 n k)
      = b (ix1 k) := by
  refine (broadcastInDim_apply _ _ _ (ix2 n k) (ix2 (0 : Fin 1) k) fun a => ?_).trans
    (broadcastInDim_apply _ _ b (ix2 (0 : Fin 1) k) (ix1 k) fun a => ?_)
  · match a with
    | ⟨0, _⟩ => rfl
    | ⟨1, _⟩ =>
      show k.val = if (128 : ℕ) = 1 then 0 else k.val
      rw [if_neg (by decide)]
  · match a with
    | ⟨0, _⟩ =>
      show k.val = if (128 : ℕ) = 1 then 0 else k.val
      rw [if_neg (by decide)]

/-- A per-node value kept as a column and spread over 128 columns reads, at (n, q), the node's value. -/
theorem spread_apply (v : FVec Ideal S20000 .f32) (n : Fin 20000) (q : Fin 128) :
    broadcastInDim S20000x128 ![0, 1] bcast_S20000x1_S20000x128_0_1 (broadcastInDim S20000x1 ![0] bcast_S20000_S20000x1_0 v) (ix2 n q)
      = v (ix1 n) := by
  refine (broadcastInDim_apply _ _ _ (ix2 n q) (ix2 n (0 : Fin 1)) fun a => ?_).trans
    (broadcastInDim_apply _ _ v (ix2 n (0 : Fin 1)) (ix1 n) fun a => ?_)
  · match a with
    | ⟨0, _⟩ =>
      show n.val = if (20000 : ℕ) = 1 then 0 else n.val
      rw [if_neg (by decide)]
    | ⟨1, _⟩ => rfl
  · match a with
    | ⟨0, _⟩ =>
      show n.val = if (20000 : ℕ) = 1 then 0 else n.val
      rw [if_neg (by decide)]

/-! ## The operand indices of the reference's matrix products -/

theorem lidx7 (i : S20000x512.Idx) (k : Fin 512) : lidx_main_v7 i k = ix2 (rowOf i) k :=
  funext fun a => Fin.ext (by match a with | ⟨0, _⟩ => rfl | ⟨1, _⟩ => rfl)
theorem ridx7 (i : S20000x512.Idx) (k : Fin 512) : ridx_main_v7 i k = ix2 k (colOf i) :=
  funext fun a => Fin.ext (by match a with | ⟨0, _⟩ => rfl | ⟨1, _⟩ => rfl)
theorem lidx48 (i : S20000x512.Idx) (k : Fin 512) : lidx_main_v48 i k = ix2 (rowOf i) k :=
  funext fun a => Fin.ext (by match a with | ⟨0, _⟩ => rfl | ⟨1, _⟩ => rfl)
theorem ridx48 (i : S20000x512.Idx) (k : Fin 512) : ridx_main_v48 i k = ix2 k (colOf i) :=
  funext fun a => Fin.ext (by match a with | ⟨0, _⟩ => rfl | ⟨1, _⟩ => rfl)
theorem lidx89 (i : S20000x512.Idx) (k : Fin 512) : lidx_main_v89 i k = ix2 (rowOf i) k :=
  funext fun a => Fin.ext (by match a with | ⟨0, _⟩ => rfl | ⟨1, _⟩ => rfl)
theorem ridx89 (i : S20000x512.Idx) (k : Fin 512) : ridx_main_v89 i k = ix2 k (colOf i) :=
  funext fun a => Fin.ext (by match a with | ⟨0, _⟩ => rfl | ⟨1, _⟩ => rfl)
theorem lidx94 (i : S20000x128.Idx) (k : Fin 512) : lidx_main_v94 i k = ix2 (rowOf i) k :=
  funext fun a => Fin.ext (by match a with | ⟨0, _⟩ => rfl | ⟨1, _⟩ => rfl)
theorem ridx94 (i : S20000x128.Idx) (k : Fin 512) : ridx_main_v94 i k = ix2 k (colOf i) :=
  funext fun a => Fin.ext (by match a with | ⟨0, _⟩ => rfl | ⟨1, _⟩ => rfl)

/-! ## The first graph layer -/

/-- The network's first scaled product is the reference's product x · W₁ with each row multiplied by its node's factor. -/
theorem h1_eq : Net.h1 x0 e x2 = fun i => val_main_v7 (F := Ideal) x0 x2 i * Net.dcol e (ix2 (rowOf i) (0 : Fin 1)) := by
  funext i
  rw [val_main_v7_apply]
  simp only [lidx7, ridx7]
  rfl

/-- The reference's first aggregation is `refAgg` of that product. -/
theorem v43_eq : val_main_v43 (F := Ideal) x0 e x2 = refAgg e (val_main_v7 (F := Ideal) x0 x2) := rfl

theorem L1_ref (n : Fin 20000) (k : Fin 512) :
    val_main_v47 (F := Ideal) x0 e x2 x3 (ix2 n k) = max (refAgg e (val_main_v7 (F := Ideal) x0 x2) (ix2 n k) + x3 (ix1 k)) zeroF := by
  unfold val_main_v47 val_main_v46
  rw [maximumf_apply, addf_apply, v43_eq]
  refine congrArg₂ max (congrArg (_ + ·) ?_) rfl
  unfold val_main_v45 val_main_v44
  exact bias512_apply x3 n k

/-- The reference's first layer is the epilogue of the network's first aggregation. -/
theorem L1_apply (n : Fin 20000) (k : Fin 512) :
    val_main_v47 (F := Ideal) x0 e x2 x3 (ix2 n k)
      = epilogue (a := 20000) (Net.agg e (Net.h1 x0 e x2)) (Net.dcol e) (Net.rowB x3) (ix2 n k) := by
  rw [h1_eq, layer_eq, L1_ref]

/-! ## The second graph layer -/

/-- The network's second scaled product is the reference's product of its first layer with W₂, each row multiplied by its
    node's factor. -/
theorem h2_eq : Net.h2 x0 e x2 x3 x4
    = fun i => val_main_v48 (F := Ideal) x0 e x2 x3 x4 i * Net.dcol e (ix2 (rowOf i) (0 : Fin 1)) := by
  funext i
  obtain ⟨n, c, rfl⟩ : ∃ (n : Fin 20000) (c : Fin 512), i = ix2 n c := ⟨i 0, i 1, eq_ix2 i⟩
  rw [val_main_v48_apply]
  simp only [lidx48, ridx48, rowOf_ix2, colOf_ix2]
  show (∑ k : Fin 512, epilogue (a := 20000) (Net.agg e (Net.h1 x0 e x2)) (Net.dcol e) (Net.rowB x3) (ix2 n k) * x4 (ix2 k c))
      * Net.dcol e (ix2 n (0 : Fin 1)) = _
  have hs : ∀ k : Fin 512, val_main_v47 (F := Ideal) x0 e x2 x3 (ix2 n k)
      = epilogue (a := 20000) (Net.agg e (Net.h1 x0 e x2)) (Net.dcol e) (Net.rowB x3) (ix2 n k) := fun k => L1_apply x0 e x2 x3 n k
  simp only [hs]

theorem v84_eq : val_main_v84 (F := Ideal) x0 e x2 x3 x4 = refAgg e (val_main_v48 (F := Ideal) x0 e x2 x3 x4) := rfl

theorem L2_ref (n : Fin 20000) (k : Fin 512) :
    val_main_v88 (F := Ideal) x0 e x2 x3 x4 x5 (ix2 n k)
      = max (refAgg e (val_main_v48 (F := Ideal) x0 e x2 x3 x4) (ix2 n k) + x5 (ix1 k)) zeroF := by
  unfold val_main_v88 val_main_v87
  rw [maximumf_apply, addf_apply, v84_eq]
  refine congrArg₂ max (congrArg (_ + ·) ?_) rfl
  unfold val_main_v86 val_main_v85
  exact bias512_apply x5 n k

/-- The reference's second layer is the epilogue of the network's second aggregation. -/
theorem L2_apply (n : Fin 20000) (k : Fin 512) :
    val_main_v88 (F := Ideal) x0 e x2 x3 x4 x5 (ix2 n k)
      = epilogue (a := 20000) (Net.agg e (Net.h2 x0 e x2 x3 x4)) (Net.dcol e) (Net.rowB x5) (ix2 n k) := by
  rw [h2_eq, layer_eq, L2_ref]

/-! ## The head -/

/-- The reference's dense layer with cut-off. -/
theorem D_apply (n : Fin 20000) (c : Fin 512) :
    val_main_v93 (F := Ideal) x0 e x2 x3 x4 x5 x6 x7 (ix2 n c)
      = dense (a := 20000) (epilogue (a := 20000) (Net.agg e (Net.h2 x0 e x2 x3 x4)) (Net.dcol e) (Net.rowB x5)) x6 (Net.rowB x7) (ix2 n c) := by
  have hs : ∀ k : Fin 512, val_main_v88 (F := Ideal) x0 e x2 x3 x4 x5 (ix2 n k)
      = epilogue (a := 20000) (Net.agg e (Net.h2 x0 e x2 x3 x4)) (Net.dcol e) (Net.rowB x5) (ix2 n k) := fun k => L2_apply x0 e x2 x3 x4 x5 n k
  have hb : val_main_v91 (F := Ideal) x7 (ix2 n c) = Net.rowB x7 (ix2 (0 : Fin 1) c) := by
    unfold val_main_v91 val_main_v90
    exact (bias512_apply x7 n c).trans (rowB_apply x7 c).symm
  show _ = max ((∑ k : Fin 512, epilogue (a := 20000) (Net.agg e (Net.h2 x0 e x2 x3 x4)) (Net.dcol e) (Net.rowB x5) (ix2 n k) * x6 (ix2 k c))
      + Net.rowB x7 (ix2 (0 : Fin 1) c)) zeroF
  unfold val_main_v93 val_main_v92
  rw [maximumf_apply, addf_apply, val_main_v89_apply, hb]
  simp only [lidx89, ridx89, rowOf_ix2, colOf_ix2, hs]
  rfl

/-- The reference's logits. -/
theorem A_apply (n : Fin 20000) (q : Fin 128) :
    val_main_v97 (F := Ideal) x0 e x2 x3 x4 x5 x6 x7 x8 x9 (ix2 n q)
      = affine (a := 20000) (dense (a := 20000) (epilogue (a := 20000) (Net.agg e (Net.h2 x0 e x2 x3 x4)) (Net.dcol e) (Net.rowB x5)) x6 (Net.rowB x7))
          x8 (Net.rowB128 x9) (ix2 n q) := by
  have hs : ∀ k : Fin 512, val_main_v93 (F := Ideal) x0 e x2 x3 x4 x5 x6 x7 (ix2 n k)
      = dense (a := 20000) (epilogue (a := 20000) (Net.agg e (Net.h2 x0 e x2 x3 x4)) (Net.dcol e) (Net.rowB x5)) x6 (Net.rowB x7) (ix2 n k) :=
    fun k => D_apply x0 e x2 x3 x4 x5 x6 x7 n k
  have hb : val_main_v96 (F := Ideal) x9 (ix2 n q) = Net.rowB128 x9 (ix2 (0 : Fin 1) q) := by
    unfold val_main_v96 val_main_v95
    exact (bias128_apply x9 n q).trans (rowB128_apply x9 q).symm
  show _ = (∑ k : Fin 512, dense (a := 20000) (epilogue (a := 20000) (Net.agg e (Net.h2 x0 e x2 x3 x4)) (Net.dcol e) (Net.rowB x5)) x6 (Net.rowB x7) (ix2 n k) * x8 (ix2 k q))
      + Net.rowB128 x9 (ix2 (0 : Fin 1) q)
  unfold val_main_v97
  rw [addf_apply, val_main_v94_apply, hb]
  simp only [lidx94, ridx94, rowOf_ix2, colOf_ix2, hs]

theorem A_eq : val_main_v97 (F := Ideal) x0 e x2 x3 x4 x5 x6 x7 x8 x9
    = affine (a := 20000) (dense (a := 20000) (epilogue (a := 20000) (Net.agg e (Net.h2 x0 e x2 x3 x4)) (Net.dcol e) (Net.rowB x5)) x6 (Net.rowB x7))
        x8 (Net.rowB128 x9) := by
  funext i
  obtain ⟨n, q, rfl⟩ : ∃ (n : Fin 20000) (q : Fin 128), i = ix2 n q := ⟨i 0, i 1, eq_ix2 i⟩
  exact A_apply x0 e x2 x3 x4 x5 x6 x7 x8 x9 n q

/-- The host's row maximum of a 128-column table, taken against minus infinity once more, is the row's maximum. -/
theorem hostRowMax_apply (L : FVec Ideal S20000x128 .f32) (n : Fin 20000) :
    max negInfF (Host.reduce (FloatOps.maximumf (F := Ideal) (φ := .f32)) L (constant (F := Ideal) S_ .f32 0xFF800000#32) reducesTo_S20000x128_S20000_d1 h_S_ (ix1 n))
      = rowMax (a := 20000) L n := by
  rw [Host.reduce_eq_fold_single (FloatOps.maximumf (F := Ideal) (φ := .f32)) L _ reducesTo_S20000x128_S20000_d1 (by decide) h_S_ (ix1 n)]
  have hf : (L ∘ (by decide : S20000x128.Reduces [1] S20000).lift (ix1 n)) = fun q : Fin 128 => L (ix2 n q) := by
    funext q
    refine congrArg L (funext fun b => Fin.ext ?_)
    match b with
    | ⟨0, _⟩ => rfl
    | ⟨1, _⟩ => rfl
  rw [hf]
  exact max_negInf_fold _ _

/-- The host's row sum from zero is the row's sum. -/
theorem hostRowSum_apply (E : FVec Ideal S20000x128 .f32) (n : Fin 20000) :
    Host.reduceAdd E (constant (F := Ideal) S_ .f32 0x00000000#32) reducesTo_S20000x128_S20000_d1 h_S_ (ix1 n)
      = ∑ q : Fin 128, E (ix2 n q) := by
  simp only [Host.reduceAdd, Ideal.hostReduceAdd_def]
  rw [Ideal.hostReduceAdd_single reducesTo_S20000x128_S20000_d1 (by decide)]
  refine (congrArg (· + _) Ideal.ofBits_zero_f32).trans ((zero_add _).trans (Finset.sum_congr rfl fun q _ => ?_))
  refine congrArg E (funext fun b => Fin.ext ?_)
  match b with
  | ⟨0, _⟩ => rfl
  | ⟨1, _⟩ => rfl

/-- The reference's exponentials. -/
theorem E_apply (n : Fin 20000) (q : Fin 128) :
    val_main_v104 (F := Ideal) x0 e x2 x3 x4 x5 x6 x7 x8 x9 (ix2 n q)
      = Ideal.exp (val_main_v97 (F := Ideal) x0 e x2 x3 x4 x5 x6 x7 x8 x9 (ix2 n q) - rowMax (a := 20000) (val_main_v97 (F := Ideal) x0 e x2 x3 x4 x5 x6 x7 x8 x9) n) := by
  have hm : val_main_v102 (F := Ideal) x0 e x2 x3 x4 x5 x6 x7 x8 x9 (ix2 n q) = rowMax (a := 20000) (val_main_v97 (F := Ideal) x0 e x2 x3 x4 x5 x6 x7 x8 x9) n := by
    unfold val_main_v102 val_main_v101
    rw [spread_apply]
    unfold val_main_v100 val_main_v98 val_main_v99 val_main_cst_21 val_main_cst_20
    rw [maximumf_apply]
    exact hostRowMax_apply (val_main_v97 (F := Ideal) x0 e x2 x3 x4 x5 x6 x7 x8 x9) n
  unfold val_main_v104 val_main_v103
  rw [hostExp_apply, subf_apply, hm]

/-- The reference's softmax is the row softmax of its logits. -/
theorem S_apply (n : Fin 20000) (q : Fin 128) :
    val_main_v108 (F := Ideal) x0 e x2 x3 x4 x5 x6 x7 x8 x9 (ix2 n q) = softmaxRows (a := 20000) (val_main_v97 (F := Ideal) x0 e x2 x3 x4 x5 x6 x7 x8 x9) (ix2 n q) := by
  have hd : val_main_v107 (F := Ideal) x0 e x2 x3 x4 x5 x6 x7 x8 x9 (ix2 n q)
      = ∑ q' : Fin 128, Ideal.exp (val_main_v97 (F := Ideal) x0 e x2 x3 x4 x5 x6 x7 x8 x9 (ix2 n q') - rowMax (a := 20000) (val_main_v97 (F := Ideal) x0 e x2 x3 x4 x5 x6 x7 x8 x9) n) := by
    unfold val_main_v107 val_main_v106
    rw [spread_apply]
    unfold val_main_v105 val_main_cst_22
    rw [hostRowSum_apply]
    exact Finset.sum_congr rfl fun q' _ => E_apply x0 e x2 x3 x4 x5 x6 x7 x8 x9 n q'
  show _ = Ideal.div (Ideal.exp (val_main_v97 (F := Ideal) x0 e x2 x3 x4 x5 x6 x7 x8 x9 (ix2 n q) - rowMax (a := 20000) (val_main_v97 (F := Ideal) x0 e x2 x3 x4 x5 x6 x7 x8 x9) n))
      (∑ q' : Fin 128, Ideal.exp (val_main_v97 (F := Ideal) x0 e x2 x3 x4 x5 x6 x7 x8 x9 (ix2 n q') - rowMax (a := 20000) (val_main_v97 (F := Ideal) x0 e x2 x3 x4 x5 x6 x7 x8 x9) n))
  unfold val_main_v108
  rw [hostDivf_apply, E_apply, hd]

/-- THE REFERENCE'S RESULT is the network of its arguments. -/
theorem result_eq : val_main_v108 (F := Ideal) x0 e x2 x3 x4 x5 x6 x7 x8 x9 = Net.net x0 e x2 x3 x4 x5 x6 x7 x8 x9 := by
  funext i
  obtain ⟨n, q, rfl⟩ : ∃ (n : Fin 20000) (q : Fin 128), i = ix2 n q := ⟨i 0, i 1, eq_ix2 i⟩
  rw [S_apply, A_eq]
  rfl

end Cert.ReferenceIdeal.RefNet

end
-- ==== Proof.lean ====
/-
  A two-layer graph convolution network with a dense head and a row softmax, computed two ways, gives one result over the
  extended reals.

  The kernel program normalises an aggregation in two steps: every node's features are multiplied by the node's factor
  d = 1/√deg (inside the matrix product's region), the senders' rows are gathered and added into the receivers' rows, and
  the receiver's factor is applied to the sum in the next region's first step. The reference multiplies every gathered row
  by the product of the sender's and the receiver's factors and then adds. The two agree because a factor is a finite
  non-negative real whatever the degree, so that multiplication by it distributes over the finite sum of extended reals
  (Spec.lean, `layer_law`; nothing about the float inputs is used), and because an edge that arrives at node n has receiver
  n. Everything else the two programs do is the same arithmetic read at an index: a change of float format is the identity,
  a block product into a zero accumulator and the host's matrix product are the same sum, a lane maximum and a lane sum are
  the host's row maximum and row sum, and the reference's extra maximum against minus infinity changes nothing.

  The kernel side: the run with the result named (KRun.lean), each region's output table as a layer of its entry arrays
  (KPay.lean, KVal.lean), and the result followed through the program's segments to the network of the arguments
  (KChain.lean, Net.lean). The reference side: its run and its stages read at an index (RefRunPatched.lean,
  RefReadPatched.lean), the layer equality (RefLayer.lean) and the chain of its stages to the same network (RefNet.lean).
  The word-level kernel's claim is its frame; no rewrite separates it from its idealization.
-/
import proofs.«151695_j15977278341604_2_alg».proof.Defs
import proofs.«151695_j15977278341604_2_alg».proof.Proof.Gen.Kernel
import proofs.«151695_j15977278341604_2_alg».proof.Proof.Gen.Kernel.Skeleton
import proofs.«151695_j15977278341604_2_alg».proof.Proof.Gen.Kernel.Launch
import proofs.«151695_j15977278341604_2_alg».proof.Proof.Gen.Kernel.Points
import proofs.«151695_j15977278341604_2_alg».proof.Proof.Gen.Kernel.Frame
import proofs.«151695_j15977278341604_2_alg».proof.Proof.Gen.KernelIdeal
import proofs.«151695_j15977278341604_2_alg».proof.Proof.Gen.KernelIdeal.Skeleton
import proofs.«151695_j15977278341604_2_alg».proof.Proof.Gen.KernelIdeal.Launch
import proofs.«151695_j15977278341604_2_alg».proof.Proof.Gen.KernelIdeal.Points
import proofs.«151695_j15977278341604_2_alg».proof.Proof.Gen.KernelIdeal.Frame
import proofs.«151695_j15977278341604_2_alg».proof.Proof.Gen.ReferenceIdeal
import proofs.«151695_j15977278341604_2_alg».proof.Proof.Gen.Pre_finite_inputs
import proofs.«151695_j15977278341604_2_alg».proof.Proof.KRun
import proofs.«151695_j15977278341604_2_alg».proof.Proof.KChain
import proofs.«151695_j15977278341604_2_alg».proof.Proof.RefRunPatched
import proofs.«151695_j15977278341604_2_alg».proof.Proof.RefReadPatched
import proofs.«151695_j15977278341604_2_alg».proof.Proof.RefNet
import Idealize.ShloMosaic.Adequacy
import Idealize.ShloMosaic.Init

noncomputable section

namespace Cert.Proof

open Idealize.ShloMosaic Idealize.SL.Sem

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- So does the idealized reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both idealized programs end with the network of the (agreeing) arguments in their result tables. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.KChain.W8_v42 m ρ c), (h c).2⟩)
      (Cert.KernelIdeal.KRun.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9⟩ := hagree c
    rw [Cert.ReferenceIdeal.ReadP.val_main_v108_eq, Cert.ReferenceIdeal.RefNet.result_eq, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
